-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x1 : Shape := ⟨2, ![800000, 1]⟩
abbrev S50000 : Shape := ⟨1, ![50000]⟩
abbrev S20000 : Shape := ⟨1, ![20000]⟩
abbrev S200000 : Shape := ⟨1, ![200000]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x1 .f32 := Host.absf main_arg20
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg17 : FVec F S128 .f32) (main_arg18 : FVec F S128x128 .f32) (main_arg19 : FVec F S128 .f32) (main_arg20 : FVec F S128x1 .f32) (main_arg21 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_v63 main_v67

def fn_part2 {F : FTy → Type} [FloatOps F] (main_arg13 : FVec F S3x128 .f32) (main_arg14 : FVec F S3x128x128 .f32) (main_arg15 : FVec F S3x128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S3x128 .f32 := Host.absf main_arg13
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg14
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg15
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S256x128 .f32 := Host.absf main_arg16
  let main_cst_18 : FVec F S_ .f32 := constant S_ .f32 0x7F800000#32
  let main_v50 : FVec F S256x128 .f32 := broadcastInDim S256x128 ![] bcast_S_S256x128 main_cst_18
  fn_part3 (F := F) main_arg17 main_arg18 main_arg19 main_arg20 main_arg21 main_v48 main_v49 main_v50

def fn_part1 {F : FTy → Type} [FloatOps F] (main_arg10 : FVec F S1x128 .f32) (main_arg11 : FVec F S128 .f32) (main_arg12 : FVec F S3x128x128 .f32) (main_arg13 : FVec F S3x128 .f32) (main_arg14 : FVec F S3x128x128 .f32) (main_arg15 : FVec F S3x128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg10
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg12
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg13 main_arg14 main_arg15 main_arg16 main_arg17 main_arg18 main_arg19 main_arg20 main_arg21 main_v33

def fn {F : FTy → Type} [FloatOps F] (main_arg0 : FVec F S50000x64 .f32) (main_arg1 : IVec S2x800000 32) (main_arg2 : FVec F S800000x1 .f32) (main_arg3 : IVec S50000 32) (main_arg4 : IVec S20000 32) (main_arg5 : IVec S20000 1) (main_arg6 : IVec S200000 32) (main_arg7 : IVec S200000 32) (main_arg8 : FVec F S64x128 .f32) (main_arg9 : FVec F S128 .f32) (main_arg10 : FVec F S1x128 .f32) (main_arg11 : FVec F S128 .f32) (main_arg12 : FVec F S3x128x128 .f32) (main_arg13 : FVec F S3x128 .f32) (main_arg14 : FVec F S3x128x128 .f32) (main_arg15 : FVec F S3x128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S64x128 .f32 := Host.absf main_arg8
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S2x800000 : Shape := ⟨2, ![2, 800000]⟩
abbrev S800000x1 : Shape := ⟨2, ![800000, 1]⟩
abbrev S50000 : Shape := ⟨1, ![50000]⟩
abbrev S20000 : Shape := ⟨1, ![20000]⟩
abbrev S200000 : Shape := ⟨1, ![200000]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S_ : Shape := ⟨0, ![]⟩
abbrev S1x128x128 : Shape := ⟨3, ![1, 128, 128]⟩
abbrev S200000x1 : Shape := ⟨2, ![200000, 1]⟩
abbrev S200000x128 : Shape := ⟨2, ![200000, 128]⟩
abbrev S20000x128 : Shape := ⟨2, ![20000, 128]⟩
abbrev S20000x1 : Shape := ⟨2, ![20000, 1]⟩
abbrev S2048x128 : Shape := ⟨2, ![2048, 128]⟩
abbrev S2048x1 : Shape := ⟨2, ![2048, 1]⟩
abbrev S20000x256 : Shape := ⟨2, ![20000, 256]⟩
abbrev S2000x256 : Shape := ⟨2, ![2000, 256]⟩
abbrev S2000x128 : Shape := ⟨2, ![2000, 128]⟩

abbrev nBuf : Space → Nat
  | .hbm => 191
  | .vmem => 40
  | .smem => 0
  | _ => 0

abbrev hbmTy0_0 (i : Nat) : BufTy := match i % 128 with
  | 0 => ⟨S50000x64, .f32⟩
  | 1 => ⟨S2x800000, .i32⟩
  | 2 => ⟨S800000x1, .f32⟩
  | 3 => ⟨S50000, .i32⟩
  | 4 => ⟨S20000, .i32⟩
  | 5 => ⟨S20000, .i1⟩
  | 6 => ⟨S200000, .i32⟩
  | 7 => ⟨S200000, .i32⟩
  | 8 => ⟨S64x128, .f32⟩
  | 9 => ⟨S128, .f32⟩
  | 10 => ⟨S1x128, .f32⟩
  | 11 => ⟨S128, .f32⟩
  | 12 => ⟨S3x128x128, .f32⟩
  | 13 => ⟨S3x128, .f32⟩
  | 14 => ⟨S3x128x128, .f32⟩
  | 15 => ⟨S3x128, .f32⟩
  | 16 => ⟨S256x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S1x128, .f32⟩
  | 27 => ⟨S50000x128, .f32⟩
  | 28 => ⟨S800000x128, .f32⟩
  | 29 => ⟨S1x128, .f32⟩
  | 30 => ⟨S800000x128, .f32⟩
  | 31 => ⟨S800000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x128, .f32⟩
  | 42 => ⟨S_, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S1x128, .f32⟩
  | 60 => ⟨S50000x128, .f32⟩
  | 61 => ⟨S800000x128, .f32⟩
  | 62 => ⟨S1x128, .f32⟩
  | 63 => ⟨S800000x128, .f32⟩
  | 64 => ⟨S800000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x128, .f32⟩
  | 75 => ⟨S_, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S50000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128, .f32⟩
  | 93 => ⟨S50000x128, .f32⟩
  | 94 => ⟨S800000x128, .f32⟩
  | 95 => ⟨S1x128, .f32⟩
  | 96 => ⟨S800000x128, .f32⟩
  | 97 => ⟨S800000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x128, .f32⟩
  | 108 => ⟨S_, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S1x128, .f32⟩
  | 126 => ⟨S50000x128, .f32⟩
  | 127 => ⟨S_, .i32⟩
  | _ => ⟨S50000x64, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x128, .f32⟩
  | 8 => ⟨S_, .f32⟩
  | 9 => ⟨S20000x128, .f32⟩
  | 10 => ⟨S200000x1, .i32⟩
  | 11 => ⟨S20000x128, .f32⟩
  | 12 => ⟨S_, .f32⟩
  | 13 => ⟨S200000x1, .f32⟩
  | 14 => ⟨S_, .f32⟩
  | 15 => ⟨S20000x1, .f32⟩
  | 16 => ⟨S200000x1, .i32⟩
  | 17 => ⟨S20000x1, .f32⟩
  | 18 => ⟨S_, .f32⟩
  | 19 => ⟨S20000x1, .f32⟩
  | 20 => ⟨S20000x1, .f32⟩
  | 21 => ⟨S20000x128, .f32⟩
  | 22 => ⟨S20000x128, .f32⟩
  | 23 => ⟨S_, .f32⟩
  | 24 => ⟨S2048x128, .f32⟩
  | 25 => ⟨S20000x1, .i32⟩
  | 26 => ⟨S2048x128, .f32⟩
  | 27 => ⟨S_, .f32⟩
  | 28 => ⟨S20000x1, .f32⟩
  | 29 => ⟨S_, .f32⟩
  | 30 => ⟨S2048x1, .f32⟩
  | 31 => ⟨S20000x1, .i32⟩
  | 32 => ⟨S2048x1, .f32⟩
  | 33 => ⟨S_, .f32⟩
  | 34 => ⟨S2048x1, .f32⟩
  | 35 => ⟨S2048x1, .f32⟩
  | 36 => ⟨S2048x128, .f32⟩
  | 37 => ⟨S2048x128, .f32⟩
  | 38 => ⟨S_, .i32⟩
  | 39 => ⟨S20000, .i32⟩
  | 40 => ⟨S20000, .i1⟩
  | 41 => ⟨S_, .i32⟩
  | 42 => ⟨S20000, .i32⟩
  | 43 => ⟨S20000, .i32⟩
  | 44 => ⟨S20000, .i32⟩
  | 45 => ⟨S20000x1, .i32⟩
  | 46 => ⟨S20000x128, .f32⟩
  | 47 => ⟨S20000x256, .f32⟩
  | 48 => ⟨S_, .i32⟩
  | 49 => ⟨S_, .f32⟩
  | 50 => ⟨S128x128, .f32⟩
  | 51 => ⟨S_, .i32⟩
  | 52 => ⟨S_, .f32⟩
  | 53 => ⟨S128, .f32⟩
  | 54 => ⟨S1x128, .f32⟩
  | 55 => ⟨S1x128, .f32⟩
  | 56 => ⟨S1x128, .f32⟩
  | 57 => ⟨S20000x128, .f32⟩
  | 58 => ⟨S20000x1, .f32⟩
  | 59 => ⟨S20000, .f32⟩
  | 60 => ⟨S_, .f32⟩
  | 61 => ⟨S20000, .f32⟩
  | 62 => ⟨S20000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S2000x256, .f32⟩
  | .local _ .vmem, ⟨31, _⟩ => ⟨S2000x256, .f32⟩
  | .local _ .vmem, ⟨32, _⟩ => ⟨S256x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call0_cst : Ref sig .tc := ⟨.hbm, 42, rfl⟩
abbrev main_call0_v0 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_1 : Ref sig .tc := ⟨.hbm, 65, rfl⟩
abbrev main_v38 : Ref sig .tc := ⟨.hbm, 66, rfl⟩
abbrev main_v39 : Ref sig .tc := ⟨.hbm, 67, rfl⟩
abbrev main_c_2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_cst : Ref sig .tc := ⟨.hbm, 75, rfl⟩
abbrev main_call1_v0 : Ref sig .tc := ⟨.hbm, 76, rfl⟩
abbrev main_v46 : Ref sig .tc := ⟨.hbm, 77, rfl⟩
abbrev main_cst_3 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_4 : Ref sig .tc := ⟨.hbm, 98, rfl⟩
abbrev main_v66 : Ref sig .tc := ⟨.hbm, 99, rfl⟩
abbrev main_v67 : Ref sig .tc := ⟨.hbm, 100, rfl⟩
abbrev main_c_5 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call2_cst : Ref sig .tc := ⟨.hbm, 108, rfl⟩
abbrev main_call2_v0 : Ref sig .tc := ⟨.hbm, 109, rfl⟩
abbrev main_v74 : Ref sig .tc := ⟨.hbm, 110, rfl⟩
abbrev main_cst_6 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_7 : Ref sig .tc := ⟨.hbm, 127, rfl⟩
abbrev main_v90 : Ref sig .tc := ⟨.hbm, 128, rfl⟩
abbrev main_v91 : Ref sig .tc := ⟨.hbm, 129, rfl⟩
abbrev main_c_8 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_9 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_10 : Ref sig .tc := ⟨.hbm, 140, rfl⟩
abbrev main_v100 : Ref sig .tc := ⟨.hbm, 141, rfl⟩
abbrev main_cst_11 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_12 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_13 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_14 : Ref sig .tc := ⟨.hbm, 155, rfl⟩
abbrev main_v111 : Ref sig .tc := ⟨.hbm, 156, rfl⟩
abbrev main_cst_15 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_16 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_17 : Ref sig .tc := ⟨.hbm, 166, rfl⟩
abbrev main_v119 : Ref sig .tc := ⟨.hbm, 167, rfl⟩
abbrev main_v120 : Ref sig .tc := ⟨.hbm, 168, rfl⟩
abbrev main_c_18 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_19 : Ref sig .tc := ⟨.hbm, 176, rfl⟩
abbrev main_call3_v0 : Ref sig .tc := ⟨.hbm, 177, rfl⟩
abbrev main_v127 : Ref sig .tc := ⟨.hbm, 178, rfl⟩
abbrev main_c_20 : Ref sig .tc := ⟨.hbm, 179, rfl⟩
abbrev main_call4_v0 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_21 : Ref sig .tc := ⟨.hbm, 188, rfl⟩
abbrev main_call5_v0 : Ref sig .tc := ⟨.hbm, 189, rfl⟩
abbrev main_v135 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S200000 : S_.BroadcastsInDim S200000 (![] : Fin 0 → Fin S200000.rank)
  bcast_S200000_S200000x1_0 : S200000.BroadcastsInDim S200000x1 (![0] : Fin 1 → Fin S200000x1.rank)
  bcast_S_S20000x128 : S_.BroadcastsInDim S20000x128 (![] : Fin 0 → Fin S20000x128.rank)
  bcast_S_S200000x1 : S_.BroadcastsInDim S200000x1 (![] : Fin 0 → Fin S200000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S_S2048x128 : S_.BroadcastsInDim S2048x128 (![] : Fin 0 → Fin S2048x128.rank)
  bcast_S20000_S20000x1_0 : S20000.BroadcastsInDim S20000x1 (![0] : Fin 1 → Fin S20000x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S20000 : S_.BroadcastsInDim S20000 (![] : Fin 0 → Fin S20000.rank)
  concatenates_S20000x128_S20000x128_S20000x256_d1 : Shape.Concatenates [S20000x128, S20000x128] S20000x256 1
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S20000x128_S20000x1_0_0 : S20000x128.Slices ![0, 0] S20000x1
  shapeCasts_S20000x1_S20000 : S20000x1.ShapeCasts S20000
  dot_S5000x64_S64x128_S5000x128_1_0_0_1_n_n_wf : DotDims.WF S5000x64 S64x128 S5000x128 [1] [0] [0] [1] [] []
  dot_S800000x1_S1x128_S800000x128_1_0_0_1_n_n_wf : DotDims.WF S800000x1 S1x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  scatter_S20000x128_S200000x1_S200000x128_1_0_0_1_wf : ScatterDims.WF S20000x128 S200000x1 S200000x128 [1] [0] [0] 1
  scatter_S20000x1_S200000x1_S200000x1_1_0_0_1_wf : ScatterDims.WF S20000x1 S200000x1 S200000x1 [1] [0] [0] 1
  scatter_S2048x128_S20000x1_S20000x128_1_0_0_1_wf : ScatterDims.WF S2048x128 S20000x1 S20000x128 [1] [0] [0] 1
  scatter_S2048x1_S20000x1_S20000x1_1_0_0_1_wf : ScatterDims.WF S2048x1 S20000x1 S20000x1 [1] [0] [0] 1
  gather_S2048x128_S20000x1_S20000x128_1_0_n_n_0_1_1128_wf : GatherDims.WF S2048x128 S20000x1 S20000x128 [1] [0] [] [0] [] 1 ![1, 128]
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S20000x128.size a
  hwx4_7 : ∀ i : grid4.Coords, EltTy.bits .f32 = 32 ∨ (Rect.block (s := S20000x128) S2000x128.size (cc4_transform_7 i) (hinb4_7 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S20000x1_S200000x1_S200000x1_1_0_0_1 : ScatterDims S20000x1 S200000x1 S200000x1 where
  updateWindowDims := [1]
  insertedWindowDims := [0]
  scatterDimsToOperandDims := [0]
  indexVectorDim := 1
  wf := scatter_S20000x1_S200000x1_S200000x1_1_0_0_1_wf
def scatter_S2048x128_S20000x1_S20000x128_1_0_0_1 : ScatterDims S2048x128 S20000x1 S20000x128 where
  updateWindowDims := [1]
  insertedWindowDims := [0]
  scatterDimsToOperandDims := [0]
  indexVectorDim := 1
  wf := scatter_S2048x128_S20000x1_S20000x128_1_0_0_1_wf
def scatter_S2048x1_S20000x1_S20000x1_1_0_0_1 : ScatterDims S2048x1 S20000x1 S20000x1 where
  updateWindowDims := [1]
  insertedWindowDims := [0]
  scatterDimsToOperandDims := [0]
  indexVectorDim := 1
  wf := scatter_S2048x1_S20000x1_S20000x1_1_0_0_1_wf
def gather_S2048x128_S20000x1_S20000x128_1_0_n_n_0_1_1128 : GatherDims S2048x128 S20000x1 S20000x128 where
  offsetDims := [1]
  collapsedSliceDims := [0]
  operandBatchingDims := []
  startIndicesBatchingDims := []
  startIndexMap := [0]
  indexVectorDim := 1
  sliceSizes := ![1, 128]
  wf := gather_S2048x128_S20000x1_S20000x128_1_0_n_n_0_1_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v126) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v129) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v130) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v127) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v131) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v132) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x1 : Shape := ⟨2, ![800000, 1]⟩
abbrev S50000 : Shape := ⟨1, ![50000]⟩
abbrev S20000 : Shape := ⟨1, ![20000]⟩
abbrev S200000 : Shape := ⟨1, ![200000]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S800000x128 : Shape := ⟨2, ![800000, 128]⟩
abbrev S_ : Shape := ⟨0, ![]⟩
abbrev S1x128x128 : Shape := ⟨3, ![1, 128, 128]⟩
abbrev S200000x1 : Shape := ⟨2, ![200000, 1]⟩
abbrev S200000x128 : Shape := ⟨2, ![200000, 128]⟩
abbrev S20000x128 : Shape := ⟨2, ![20000, 128]⟩
abbrev S20000x1 : Shape := ⟨2, ![20000, 1]⟩
abbrev S2048x128 : Shape := ⟨2, ![2048, 128]⟩
abbrev S2048x1 : Shape := ⟨2, ![2048, 1]⟩
abbrev S20000x256 : Shape := ⟨2, ![20000, 256]⟩
abbrev S1x1 : Shape := ⟨2, ![1, 1]⟩

abbrev nBuf : Space → Nat
  | .hbm => 225
  | .vmem => 0
  | .smem => 0
  | _ => 0

abbrev hbmTy0_0 (i : Nat) : BufTy := match i % 128 with
  | 0 => ⟨S50000x64, .f32⟩
  | 1 => ⟨S2x800000, .i32⟩
  | 2 => ⟨S800000x1, .f32⟩
  | 3 => ⟨S50000, .i32⟩
  | 4 => ⟨S20000, .i32⟩
  | 5 => ⟨S20000, .i1⟩
  | 6 => ⟨S200000, .i32⟩
  | 7 => ⟨S200000, .i32⟩
  | 8 => ⟨S64x128, .f32⟩
  | 9 => ⟨S128, .f32⟩
  | 10 => ⟨S1x128, .f32⟩
  | 11 => ⟨S128, .f32⟩
  | 12 => ⟨S3x128x128, .f32⟩
  | 13 => ⟨S3x128, .f32⟩
  | 14 => ⟨S3x128x128, .f32⟩
  | 15 => ⟨S3x128, .f32⟩
  | 16 => ⟨S256x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S50000x128, .f32⟩
  | 27 => ⟨S1x128, .f32⟩
  | 28 => ⟨S50000x128, .f32⟩
  | 29 => ⟨S50000x128, .f32⟩
  | 30 => ⟨S800000x128, .f32⟩
  | 31 => ⟨S1x128, .f32⟩
  | 32 => ⟨S800000x128, .f32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S_, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x128, .f32⟩
  | 84 => ⟨S_, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x128x128, .f32⟩
  | 104 => ⟨S128x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x128, .f32⟩
  | 124 => ⟨S_, .f32⟩
  | 125 => ⟨S800000x128, .f32⟩
  | 126 => ⟨S800000x128, .f32⟩
  | 127 => ⟨S_, .f32⟩
  | _ => ⟨S50000x64, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S1x128x128, .f32⟩
  | 16 => ⟨S128x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S_, .f32⟩
  | 36 => ⟨S20000x128, .f32⟩
  | 37 => ⟨S200000x1, .i32⟩
  | 38 => ⟨S20000x128, .f32⟩
  | 39 => ⟨S_, .f32⟩
  | 40 => ⟨S200000x1, .f32⟩
  | 41 => ⟨S_, .f32⟩
  | 42 => ⟨S20000x1, .f32⟩
  | 43 => ⟨S200000x1, .i32⟩
  | 44 => ⟨S20000x1, .f32⟩
  | 45 => ⟨S_, .f32⟩
  | 46 => ⟨S20000x1, .f32⟩
  | 47 => ⟨S20000x1, .f32⟩
  | 48 => ⟨S20000x128, .f32⟩
  | 49 => ⟨S20000x128, .f32⟩
  | 50 => ⟨S_, .f32⟩
  | 51 => ⟨S2048x128, .f32⟩
  | 52 => ⟨S20000x1, .i32⟩
  | 53 => ⟨S2048x128, .f32⟩
  | 54 => ⟨S_, .f32⟩
  | 55 => ⟨S20000x1, .f32⟩
  | 56 => ⟨S_, .f32⟩
  | 57 => ⟨S2048x1, .f32⟩
  | 58 => ⟨S20000x1, .i32⟩
  | 59 => ⟨S2048x1, .f32⟩
  | 60 => ⟨S_, .f32⟩
  | 61 => ⟨S2048x1, .f32⟩
  | 62 => ⟨S2048x1, .f32⟩
  | 63 => ⟨S2048x128, .f32⟩
  | 64 => ⟨S2048x128, .f32⟩
  | 65 => ⟨S_, .i32⟩
  | 66 => ⟨S20000, .i32⟩
  | 67 => ⟨S20000, .i1⟩
  | 68 => ⟨S_, .i32⟩
  | 69 => ⟨S20000, .i32⟩
  | 70 => ⟨S20000, .i32⟩
  | 71 => ⟨S20000, .i32⟩
  | 72 => ⟨S20000x1, .i32⟩
  | 73 => ⟨S20000x128, .f32⟩
  | 74 => ⟨S20000x256, .f32⟩
  | 75 => ⟨S20000x128, .f32⟩
  | 76 => ⟨S1x128, .f32⟩
  | 77 => ⟨S20000x128, .f32⟩
  | 78 => ⟨S20000x128, .f32⟩
  | 79 => ⟨S_, .f32⟩
  | 80 => ⟨S20000x128, .f32⟩
  | 81 => ⟨S20000x128, .f32⟩
  | 82 => ⟨S20000x128, .f32⟩
  | 83 => ⟨S1x128, .f32⟩
  | 84 => ⟨S20000x128, .f32⟩
  | 85 => ⟨S20000x128, .f32⟩
  | 86 => ⟨S_, .f32⟩
  | 87 => ⟨S20000x128, .f32⟩
  | 88 => ⟨S20000x128, .f32⟩
  | 89 => ⟨S20000x1, .f32⟩
  | 90 => ⟨S1x1, .f32⟩
  | 91 => ⟨S20000x1, .f32⟩
  | 92 => ⟨S20000x1, .f32⟩
  | 93 => ⟨S20000, .f32⟩
  | 94 => ⟨S_, .f32⟩
  | 95 => ⟨S20000, .f32⟩
  | 96 => ⟨S20000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call0_cst : Ref sig .tc := ⟨.hbm, 44, rfl⟩
abbrev main_call0_v0 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_cst : Ref sig .tc := ⟨.hbm, 60, rfl⟩
abbrev main_call1_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call2_cst : Ref sig .tc := ⟨.hbm, 71, rfl⟩
abbrev main_call2_v0 : Ref sig .tc := ⟨.hbm, 72, rfl⟩
abbrev main_v42 : Ref sig .tc := ⟨.hbm, 73, rfl⟩
abbrev main_c_1 : Ref sig .tc := ⟨.hbm, 74, rfl⟩
abbrev main_v43 : Ref sig .tc := ⟨.hbm, 75, rfl⟩
abbrev main_v44 : Ref sig .tc := ⟨.hbm, 76, rfl⟩
abbrev main_c_2 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call3_cst : Ref sig .tc := ⟨.hbm, 84, rfl⟩
abbrev main_call3_v0 : Ref sig .tc := ⟨.hbm, 85, rfl⟩
abbrev main_v51 : Ref sig .tc := ⟨.hbm, 86, rfl⟩
abbrev main_cst_3 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_cst : Ref sig .tc := ⟨.hbm, 100, rfl⟩
abbrev main_call4_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call5_cst : Ref sig .tc := ⟨.hbm, 111, rfl⟩
abbrev main_call5_v0 : Ref sig .tc := ⟨.hbm, 112, rfl⟩
abbrev main_v73 : Ref sig .tc := ⟨.hbm, 113, rfl⟩
abbrev main_c_4 : Ref sig .tc := ⟨.hbm, 114, rfl⟩
abbrev main_v74 : Ref sig .tc := ⟨.hbm, 115, rfl⟩
abbrev main_v75 : Ref sig .tc := ⟨.hbm, 116, rfl⟩
abbrev main_c_5 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call6_cst : Ref sig .tc := ⟨.hbm, 124, rfl⟩
abbrev main_call6_v0 : Ref sig .tc := ⟨.hbm, 125, rfl⟩
abbrev main_v82 : Ref sig .tc := ⟨.hbm, 126, rfl⟩
abbrev main_cst_6 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call7_cst : Ref sig .tc := ⟨.hbm, 140, rfl⟩
abbrev main_call7_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call8_cst : Ref sig .tc := ⟨.hbm, 151, rfl⟩
abbrev main_call8_v0 : Ref sig .tc := ⟨.hbm, 152, rfl⟩
abbrev main_v104 : Ref sig .tc := ⟨.hbm, 153, rfl⟩
abbrev main_c_7 : Ref sig .tc := ⟨.hbm, 154, rfl⟩
abbrev main_v105 : Ref sig .tc := ⟨.hbm, 155, rfl⟩
abbrev main_v106 : Ref sig .tc := ⟨.hbm, 156, rfl⟩
abbrev main_c_8 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_9 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_10 : Ref sig .tc := ⟨.hbm, 167, rfl⟩
abbrev main_v115 : Ref sig .tc := ⟨.hbm, 168, rfl⟩
abbrev main_cst_11 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_12 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_13 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_14 : Ref sig .tc := ⟨.hbm, 182, rfl⟩
abbrev main_v126 : Ref sig .tc := ⟨.hbm, 183, rfl⟩
abbrev main_cst_15 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_16 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_17 : Ref sig .tc := ⟨.hbm, 193, rfl⟩
abbrev main_v134 : Ref sig .tc := ⟨.hbm, 194, rfl⟩
abbrev main_v135 : Ref sig .tc := ⟨.hbm, 195, rfl⟩
abbrev main_c_18 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call9_cst : Ref sig .tc := ⟨.hbm, 207, rfl⟩
abbrev main_call9_v0 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_call10_cst : Ref sig .tc := ⟨.hbm, 214, rfl⟩
abbrev main_call10_v0 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_19 : Ref sig .tc := ⟨.hbm, 222, rfl⟩
abbrev main_call11_v0 : Ref sig .tc := ⟨.hbm, 223, rfl⟩
abbrev main_v157 : Ref sig .tc := ⟨.hbm, 224, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S200000 : S_.BroadcastsInDim S200000 (![] : Fin 0 → Fin S200000.rank)
  bcast_S200000_S200000x1_0 : S200000.BroadcastsInDim S200000x1 (![0] : Fin 1 → Fin S200000x1.rank)
  bcast_S_S20000x128 : S_.BroadcastsInDim S20000x128 (![] : Fin 0 → Fin S20000x128.rank)
  bcast_S_S200000x1 : S_.BroadcastsInDim S200000x1 (![] : Fin 0 → Fin S200000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S_S2048x128 : S_.BroadcastsInDim S2048x128 (![] : Fin 0 → Fin S2048x128.rank)
  bcast_S20000_S20000x1_0 : S20000.BroadcastsInDim S20000x1 (![0] : Fin 1 → Fin S20000x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S20000 : S_.BroadcastsInDim S20000 (![] : Fin 0 → Fin S20000.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  dot_S50000x64_S64x128_S50000x128_1_0_0_1_n_n_wf : DotDims.WF S50000x64 S64x128 S50000x128 [1] [0] [0] [1] [] []
  dot_S800000x1_S1x128_S800000x128_1_0_0_1_n_n_wf : DotDims.WF S800000x1 S1x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  scatter_S20000x128_S200000x1_S200000x128_1_0_0_1_wf : ScatterDims.WF S20000x128 S200000x1 S200000x128 [1] [0] [0] 1
  scatter_S20000x1_S200000x1_S200000x1_1_0_0_1_wf : ScatterDims.WF S20000x1 S200000x1 S200000x1 [1] [0] [0] 1
  scatter_S2048x128_S20000x1_S20000x128_1_0_0_1_wf : ScatterDims.WF S2048x128 S20000x1 S20000x128 [1] [0] [0] 1
  scatter_S2048x1_S20000x1_S20000x1_1_0_0_1_wf : ScatterDims.WF S2048x1 S20000x1 S20000x1 [1] [0] [0] 1
  gather_S2048x128_S20000x1_S20000x128_1_0_n_n_0_1_1128_wf : GatherDims.WF S2048x128 S20000x1 S20000x128 [1] [0] [] [0] [] 1 ![1, 128]
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []
  dot_S20000x128_S128x1_S20000x1_1_0_0_1_n_n_wf : DotDims.WF S20000x128 S128x1 S20000x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S20000x1_S200000x1_S200000x1_1_0_0_1 : ScatterDims S20000x1 S200000x1 S200000x1 where
  updateWindowDims := [1]
  insertedWindowDims := [0]
  scatterDimsToOperandDims := [0]
  indexVectorDim := 1
  wf := scatter_S20000x1_S200000x1_S200000x1_1_0_0_1_wf
def scatter_S2048x128_S20000x1_S20000x128_1_0_0_1 : ScatterDims S2048x128 S20000x1 S20000x128 where
  updateWindowDims := [1]
  insertedWindowDims := [0]
  scatterDimsToOperandDims := [0]
  indexVectorDim := 1
  wf := scatter_S2048x128_S20000x1_S20000x128_1_0_0_1_wf
def scatter_S2048x1_S20000x1_S20000x1_1_0_0_1 : ScatterDims S2048x1 S20000x1 S20000x1 where
  updateWindowDims := [1]
  insertedWindowDims := [0]
  scatterDimsToOperandDims := [0]
  indexVectorDim := 1
  wf := scatter_S2048x1_S20000x1_S20000x1_1_0_0_1_wf
def gather_S2048x128_S20000x1_S20000x128_1_0_n_n_0_1_1128 : GatherDims S2048x128 S20000x1 S20000x128 where
  offsetDims := [1]
  collapsedSliceDims := [0]
  operandBatchingDims := []
  startIndicesBatchingDims := []
  startIndexMap := [0]
  indexVectorDim := 1
  sliceSizes := ![1, 128]
  wf := gather_S2048x128_S20000x1_S20000x128_1_0_n_n_0_1_1128_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.KRun.lean ====
/-
  The idealized kernel's run, with the result read off the last boundary.

  The program is twenty-two segments: stretches of host operations and five launches. The generated frame names the
  buffer contents at every boundary between two segments (after the last one: W22) and shows that every weakly fair
  execution ends with every buffer at those contents; it then keeps only the argument arrays. Here the same launch
  theorem is applied to the same segments, and the final memory is read at the result buffer as well: the result is
  what the last boundary holds there.
-/
import proofs.«111067_j16716012716419_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_value : θ_run defs (onTc (τ := τ) (main (F := F))) ⟨m, fun _ => 0, ρ⟩ (fun r => ∀ c : Dev nD,
      r.2.mem ((c.tc : Thread nD τ).loc main_v135) = W22 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v135 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c),
       (h c _ (mem_uc main_arg21 (by decide))).trans (W22_main_arg21 m ρ c)⟩)

end Cert.KernelIdeal.KRun

end
-- ==== Proof.LibWrittenList.lean ====
/-
  Which buffers a stretch of host operations leaves alone, decided in ONE pass per stretch.

  Each operation of a straight-line stretch writes its own result buffer and nothing else.  If every operation's set
  of writes lies in the image of one literal LIST of references — one membership per operation — then a reference
  outside the list is written by no operation of the stretch, so the fold of the stretch over a memory, read at that
  reference, is the memory there.  "Outside the list" is a decidable statement about references, and the same list
  serves every buffer one asks about (a program's arguments, a pipeline's arrays): a stretch of n operations costs n
  memberships once, not n inequalities per buffer.
-/
import Idealize.ShloMosaic.Lib.StableHlo.Run

namespace Cert.LibWrittenList

open Idealize.ShloMosaic

variable {τ : Topo} {sig : RefSig} {Val : EltTy → Type}

/-- A one-buffer set of writes lies in the image of a list that has the buffer. -/
theorem singleton_sub {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

/-- A reference outside a list that holds every write of a stretch is written by no operation of the stretch. -/
theorem not_written_of {ops : List (HloOp τ sig Val)} {W : List (Ref sig .tc)}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Closes `ops.Forall fun op => op.writes ⊆ (W.map (Proc.devRef .tc)).toFinset` for a literal stretch `ops` of the
    library's host operations and a literal list `W` holding each operation's result reference. -/
macro "writes_within_list" : tactic =>
  `(tactic| (simp only [List.Forall, StableHlo.nullary_writes, StableHlo.unary_writes, StableHlo.binary_writes,
               StableHlo.ternary_writes, StableHlo.quaternary_writes, StableHlo.reshape_writes, StableHlo.binaryIndexed_writes,
               StableHlo.nary_writes, StableHlo.unaryIndexed_writes]
             repeat' apply And.intro
             all_goals exact Cert.LibWrittenList.singleton_sub (by decide)))

end Cert.LibWrittenList
-- ==== Proof.Keeps.lean ====
/-
  Which buffers the program leaves alone between its launches.

  After the first stretch of host operations has sliced the edge list into its source and destination columns, nothing
  writes those two columns again, and nothing ever writes an argument: every later host operation writes a buffer of
  its own, and each launch writes only its output array. So at every later boundary between two segments of the
  program these buffers hold what they held when the first launch was entered.
-/
import proofs.«111067_j16716012716419_1_alg».proof.Proof.Gen.KernelIdeal.Frame
import proofs.«111067_j16716012716419_1_alg».proof.Proof.LibWrittenList
import Idealize.ShloMosaic.PureOps.Ideal

set_option maxRecDepth 16384

noncomputable section

namespace Cert.KernelIdeal.Keeps

open Idealize.ShloMosaic Idealize.ShloMosaic.TcCoe Idealize.SL.Sem
open Cert.KernelIdeal Cert.KernelIdeal.Gen Cert.LibWrittenList

/-- Every buffer a host operation after the first stretch writes. -/
abbrev WR : List (Ref sig .tc) :=
  [main_v6, main_v7, main_v8, main_v9, main_c, main_v10, main_v11, main_c_0, main_v12, main_v13, main_v14, main_v15, main_v16, main_v17, main_call0_cst, main_call0_v0, main_v18, main_cst, main_v19, main_v20, main_v21, main_v22, main_v23, main_v24, main_v25, main_v26, main_v27, main_v28, main_v29, main_v30, main_v31, main_v32, main_v34, main_v35, main_v36, main_v37, main_c_1, main_v38, main_v39, main_c_2, main_v40, main_v41, main_v42, main_v43, main_v44, main_v45, main_call1_cst, main_call1_v0, main_v46, main_cst_3, main_v47, main_v48, main_v49, main_v50, main_v51, main_v52, main_v53, main_v54, main_v55, main_v56, main_v57, main_v58, main_v59, main_v60, main_v62, main_v63, main_v64, main_v65, main_c_4, main_v66, main_v67, main_c_5, main_v68, main_v69, main_v70, main_v71, main_v72, main_v73, main_call2_cst, main_call2_v0, main_v74, main_cst_6, main_v75, main_v76, main_v77, main_v78, main_v79, main_v80, main_v81, main_v82, main_v83, main_v84, main_v85, main_v86, main_v87, main_v88, main_c_7, main_v90, main_v91, main_c_8, main_v92, main_v93, main_v94, main_v95, main_v96, main_cst_9, main_v97, main_v98, main_v99, main_cst_10, main_v100, main_cst_11, main_v101, main_v102, main_v103, main_cst_12, main_v104, main_v105, main_v106, main_v107, main_cst_13, main_v108, main_v109, main_v110, main_cst_14, main_v111, main_cst_15, main_v112, main_v113, main_v114, main_cst_16, main_v115, main_v116, main_v117, main_v118, main_c_17, main_v119, main_v120, main_c_18, main_v121, main_v122, main_v123, main_v124, main_v125, main_v126, main_c_19, main_call3_v0, main_v127, main_c_20, main_call4_v0, main_v128, main_v129, main_v130, main_v131, main_v133, main_v134, main_cst_21, main_call5_v0, main_v135]

theorem hostOps1_wr : (hostOps1 : List (HloOp τ sig (Elt Ideal))).Forall fun op => op.writes ⊆ (WR.map (Proc.devRef (τ := τ) .tc)).toFinset := by
  writes_within_list
theorem hostOps1_1_wr : (hostOps1_1 : List (HloOp τ sig (Elt Ideal))).Forall fun op => op.writes ⊆ (WR.map (Proc.devRef (τ := τ) .tc)).toFinset := by
  writes_within_list
theorem hostOps1_2_wr : (hostOps1_2 : List (HloOp τ sig (Elt Ideal))).Forall fun op => op.writes ⊆ (WR.map (Proc.devRef (τ := τ) .tc)).toFinset := by
  writes_within_list
theorem hostOps2_wr : (hostOps2 : List (HloOp τ sig (Elt Ideal))).Forall fun op => op.writes ⊆ (WR.map (Proc.devRef (τ := τ) .tc)).toFinset := by
  writes_within_list
theorem hostOps2_1_wr : (hostOps2_1 : List (HloOp τ sig (Elt Ideal))).Forall fun op => op.writes ⊆ (WR.map (Proc.devRef (τ := τ) .tc)).toFinset := by
  writes_within_list
theorem hostOps2_2_wr : (hostOps2_2 : List (HloOp τ sig (Elt Ideal))).Forall fun op => op.writes ⊆ (WR.map (Proc.devRef (τ := τ) .tc)).toFinset := by
  writes_within_list
theorem hostOps3_wr : (hostOps3 : List (HloOp τ sig (Elt Ideal))).Forall fun op => op.writes ⊆ (WR.map (Proc.devRef (τ := τ) .tc)).toFinset := by
  writes_within_list
theorem hostOps3_1_wr : (hostOps3_1 : List (HloOp τ sig (Elt Ideal))).Forall fun op => op.writes ⊆ (WR.map (Proc.devRef (τ := τ) .tc)).toFinset := by
  writes_within_list
theorem hostOps3_2_wr : (hostOps3_2 : List (HloOp τ sig (Elt Ideal))).Forall fun op => op.writes ⊆ (WR.map (Proc.devRef (τ := τ) .tc)).toFinset := by
  writes_within_list
theorem hostOps4_wr : (hostOps4 : List (HloOp τ sig (Elt Ideal))).Forall fun op => op.writes ⊆ (WR.map (Proc.devRef (τ := τ) .tc)).toFinset := by
  writes_within_list
theorem hostOps4_1_wr : (hostOps4_1 : List (HloOp τ sig (Elt Ideal))).Forall fun op => op.writes ⊆ (WR.map (Proc.devRef (τ := τ) .tc)).toFinset := by
  writes_within_list
theorem hostOps4_2_wr : (hostOps4_2 : List (HloOp τ sig (Elt Ideal))).Forall fun op => op.writes ⊆ (WR.map (Proc.devRef (τ := τ) .tc)).toFinset := by
  writes_within_list
theorem hostOps4_3_wr : (hostOps4_3 : List (HloOp τ sig (Elt Ideal))).Forall fun op => op.writes ⊆ (WR.map (Proc.devRef (τ := τ) .tc)).toFinset := by
  writes_within_list
theorem hostOps4_4_wr : (hostOps4_4 : List (HloOp τ sig (Elt Ideal))).Forall fun op => op.writes ⊆ (WR.map (Proc.devRef (τ := τ) .tc)).toFinset := by
  writes_within_list
theorem hostOps5_wr : (hostOps5 : List (HloOp τ sig (Elt Ideal))).Forall fun op => op.writes ⊆ (WR.map (Proc.devRef (τ := τ) .tc)).toFinset := by
  writes_within_list
theorem hostOps5_1_wr : (hostOps5_1 : List (HloOp τ sig (Elt Ideal))).Forall fun op => op.writes ⊆ (WR.map (Proc.devRef (τ := τ) .tc)).toFinset := by
  writes_within_list

variable (m : (ℓ : Loc nD τ sig) → Buf (Elt Ideal) ℓ) (ρ : Dev nD → PrngReg) (c : Dev nD)

/-- Through the host operations between the first and the second launch. -/
theorem to5 (r : Ref sig .tc) (h : r ∉ WR) : W5 m ρ c (Proc.devRef .tc r) = W2 m ρ c (Proc.devRef .tc r) :=
  (StableHlo.after_of_writes_sub _ _ hostOps1_2_wr h).trans
    ((StableHlo.after_of_writes_sub _ _ hostOps1_1_wr h).trans (StableHlo.after_of_writes_sub _ _ hostOps1_wr h))

/-- Through the host operations between the second and the third launch. -/
theorem to9 (r : Ref sig .tc) (h : r ∉ WR) : W9 m ρ c (Proc.devRef .tc r) = W6 m ρ c (Proc.devRef .tc r) :=
  (StableHlo.after_of_writes_sub _ _ hostOps2_2_wr h).trans
    ((StableHlo.after_of_writes_sub _ _ hostOps2_1_wr h).trans (StableHlo.after_of_writes_sub _ _ hostOps2_wr h))

/-- Through the host operations between the third and the fourth launch. -/
theorem to13 (r : Ref sig .tc) (h : r ∉ WR) : W13 m ρ c (Proc.devRef .tc r) = W10 m ρ c (Proc.devRef .tc r) :=
  (StableHlo.after_of_writes_sub _ _ hostOps3_2_wr h).trans
    ((StableHlo.after_of_writes_sub _ _ hostOps3_1_wr h).trans (StableHlo.after_of_writes_sub _ _ hostOps3_wr h))

/-- Through the host operations between the fourth and the fifth launch. -/
theorem to19 (r : Ref sig .tc) (h : r ∉ WR) : W19 m ρ c (Proc.devRef .tc r) = W14 m ρ c (Proc.devRef .tc r) :=
  (StableHlo.after_of_writes_sub _ _ hostOps4_4_wr h).trans
    ((StableHlo.after_of_writes_sub _ _ hostOps4_3_wr h).trans
      ((StableHlo.after_of_writes_sub _ _ hostOps4_2_wr h).trans
        ((StableHlo.after_of_writes_sub _ _ hostOps4_1_wr h).trans (StableHlo.after_of_writes_sub _ _ hostOps4_wr h))))

/-- A buffer no later host operation writes and the first launch does not hold, when the second launch is entered. -/
theorem live5 (r : Ref sig .tc) (h : r ∉ WR) (h0 : ∀ w, Pipeline.arrRef spec0 w ≠ r) :
    W5 m ρ c (Proc.devRef .tc r) = W1 m ρ c (Proc.devRef .tc r) :=
  (to5 m ρ c r h).trans (W2_of_ne m ρ c r h0)

/-- … when the third launch is entered. -/
theorem live9 (r : Ref sig .tc) (h : r ∉ WR) (h0 : ∀ w, Pipeline.arrRef spec0 w ≠ r) (h1 : ∀ w, Pipeline.arrRef spec1 w ≠ r) :
    W9 m ρ c (Proc.devRef .tc r) = W1 m ρ c (Proc.devRef .tc r) :=
  (to9 m ρ c r h).trans ((W6_of_ne m ρ c r h1).trans (live5 m ρ c r h h0))

/-- … when the fourth launch is entered. -/
theorem live13 (r : Ref sig .tc) (h : r ∉ WR) (h0 : ∀ w, Pipeline.arrRef spec0 w ≠ r) (h1 : ∀ w, Pipeline.arrRef spec1 w ≠ r)
    (h2 : ∀ w, Pipeline.arrRef spec2 w ≠ r) : W13 m ρ c (Proc.devRef .tc r) = W1 m ρ c (Proc.devRef .tc r) :=
  (to13 m ρ c r h).trans ((W10_of_ne m ρ c r h2).trans (live9 m ρ c r h h0 h1))

/-- … when the fifth launch is entered. -/
theorem live19 (r : Ref sig .tc) (h : r ∉ WR) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) :
    W19 m ρ c (Proc.devRef .tc r) = W1 m ρ c (Proc.devRef .tc r) :=
  (to19 m ρ c r h).trans ((W14_of_ne m ρ c r h3).trans (live13 m ρ c r h h0 h1 h2))

/-- … and after the fifth launch, for a buffer it does not hold. -/
theorem live20 (r : Ref sig .tc) (h : r ∉ WR) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) (h4 : ∀ w, Pipeline.arrRef spec4 w ≠ r) :
    W20 m ρ c (Proc.devRef .tc r) = W1 m ρ c (Proc.devRef .tc r) :=
  (W20_of_ne m ρ c r h4).trans (live19 m ρ c r h h0 h1 h2 h3)

end Cert.KernelIdeal.Keeps

end
-- ==== Proof.LibDenseRows.lean ====
/-
  A dense layer read one row at a time, on the extended reals.

  A dense layer takes a matrix x (m rows of k entries), a weight matrix w (k × n) and a bias b (one row of n entries)
  to the matrix whose entry (p, q) is  (Σ_c x[p, c] · w[c, q]) + b[0, q].  Entry (p, q) depends on x only through its
  row p.  A kernel and a host program spell the layer differently — the kernel as a matrix unit's product accumulated
  into a zero splat plus the bias row broadcast down the rows, the host as a dot_general plus a broadcast along axis 0 —
  and cut the rows differently (a kernel sees a block of rows, the host all of them); read at an entry both are the
  same function of the row, whatever the number of rows.  The rectifier max(·, 0) is likewise read entry by entry.
  Nothing here uses more of real arithmetic than 0 + x = x, so everything holds at the infinities too.
-/
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws

noncomputable section

namespace Cert.LibDenseRows

open Idealize.ShloMosaic Idealize.ShloMosaic.ValueIdx

/-- One row through a dense layer: entry q of  r · w + b. -/
def denseRow {k n : ℕ} (r : Fin k → EReal) (w : (⟨2, ![k, n]⟩ : Shape).Idx → EReal)
    (b : (⟨2, ![1, n]⟩ : Shape).Idx → EReal) (q : Fin n) : EReal :=
  (∑ c : Fin k, r c * w (ix2 c q)) + b (ix2 (0 : Fin 1) q)

/-- The rectifier on one extended real, against the f32 zero word. -/
def relu (x : EReal) : EReal := max x (Ideal.ofBits .f32 0x00000000#32)

/-- One row through two rectified dense layers:  relu(relu(r · w1 + b1) · w2 + b2)  at entry q. -/
def mlp2Row {k h n : ℕ} (r : Fin k → EReal) (w1 : (⟨2, ![k, h]⟩ : Shape).Idx → EReal) (b1 : (⟨2, ![1, h]⟩ : Shape).Idx → EReal)
    (w2 : (⟨2, ![h, n]⟩ : Shape).Idx → EReal) (b2 : (⟨2, ![1, n]⟩ : Shape).Idx → EReal) (q : Fin n) : EReal :=
  relu (denseRow (fun c => relu (denseRow r w1 b1 c)) w2 b2 q)

/-- One row through two rectified dense layers and a last, unrectified one:
    relu(relu(r · w0 + b0) · w1 + b1) · w2 + b2  at entry q. -/
def mlp3Row {k h g n : ℕ} (r : Fin k → EReal) (w0 : (⟨2, ![k, h]⟩ : Shape).Idx → EReal) (b0 : (⟨2, ![1, h]⟩ : Shape).Idx → EReal)
    (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (q : Fin n) : EReal :=
  denseRow (fun d => relu (denseRow (fun c => relu (denseRow r w0 b0 c)) w1 b1 d)) w2 b2 q

/-- The dense layer of a whole matrix: entry (i, j) is row i through the layer, at j. -/
def denseArr {m k n : ℕ} (x : (⟨2, ![m, k]⟩ : Shape).Idx → EReal) (w : (⟨2, ![k, n]⟩ : Shape).Idx → EReal)
    (b : (⟨2, ![1, n]⟩ : Shape).Idx → EReal) : (⟨2, ![m, n]⟩ : Shape).Idx → EReal :=
  fun i => denseRow (fun c => x (ix2 (i 0 : Fin m) c)) w b (i 1 : Fin n)

/-- Two rectified dense layers of a whole matrix, row by row. -/
def mlp2Arr {m k h n : ℕ} (x : (⟨2, ![m, k]⟩ : Shape).Idx → EReal) (w1 : (⟨2, ![k, h]⟩ : Shape).Idx → EReal)
    (b1 : (⟨2, ![1, h]⟩ : Shape).Idx → EReal) (w2 : (⟨2, ![h, n]⟩ : Shape).Idx → EReal) (b2 : (⟨2, ![1, n]⟩ : Shape).Idx → EReal) :
    (⟨2, ![m, n]⟩ : Shape).Idx → EReal :=
  fun i => mlp2Row (fun c => x (ix2 (i 0 : Fin m) c)) w1 b1 w2 b2 (i 1 : Fin n)

/-- Two rectified dense layers and a last, unrectified one of a whole matrix, row by row. -/
def mlp3Arr {m k h g n : ℕ} (x : (⟨2, ![m, k]⟩ : Shape).Idx → EReal) (w0 : (⟨2, ![k, h]⟩ : Shape).Idx → EReal)
    (b0 : (⟨2, ![1, h]⟩ : Shape).Idx → EReal) (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) : (⟨2, ![m, n]⟩ : Shape).Idx → EReal :=
  fun i => mlp3Row (fun c => x (ix2 (i 0 : Fin m) c)) w0 b0 w1 b1 w2 b2 (i 1 : Fin n)

/-- The host's dense layer at entry (p, q): the layer applied to row p. -/
theorem host_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (p : Fin m) (q : Fin n) :
    addf (Host.dotGeneral (DotDims.plain m k n) none x w) (broadcastInDim ⟨2, ![m, n]⟩ ![0, 1] hbc b) (ix2 p q)
      = denseRow (fun c => x (ix2 p c)) w b q := by
  rw [addf_apply, StackMember.dotGeneral_plain_apply, broadcastInDim_oneRow_apply]
  rfl

/-- The kernel's dense layer on a block of rows at entry (p, q): the layer applied to row p of the block. -/
theorem kernel_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hb : (⟨2, ![1, n]⟩ : Shape).Broadcasts ⟨2, ![m, n]⟩) (p : Fin m) (q : Fin n) :
    addf (matmul (DotDims.plain m k n) none x w (constant ⟨2, ![m, n]⟩ .f32 0x00000000#32))
        (broadcastTo ⟨2, ![m, n]⟩ b hb) (ix2 p q)
      = denseRow (fun c => x (ix2 p c)) w b q := by
  rw [addf_apply, matmul_zero_eq_dotGeneral, StackMember.dotGeneral_plain_apply, broadcastTo_1b_ab_apply]
  rfl

/-- The kernel's rectifier (a maximum with the splat of the zero word) at an entry. -/
theorem kernel_relu_apply {s : Shape} (v : FVec Ideal s .f32) (i : s.Idx) :
    maximumf v (broadcast s (Scalar.ofBits (F := Ideal) .f32 0x00000000#32)) i = relu (v i) := rfl

/-- The host's rectifier (a maximum with the broadcast of the zero constant) at an entry. -/
theorem host_relu_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = relu (v i) := by
  rw [maximumf_apply, broadcastInDim_apply ![] h _ i ix0 (fun a => a.elim0)]
  rfl

/-- A vector of n entries as a one-row matrix: the reshape is the broadcast along axis 1. -/
theorem oneRow_cast_eq_bcast {α : Type} {n : ℕ} (b : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ b hc = broadcastInDim ⟨2, ![1, n]⟩ ![1] hb b := by
  funext i
  have e1 := shapeCast_apply b hc i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e2 := broadcastInDim_apply ![1] hb b i (ix1 (i 1 : Fin n)) (by
    intro a
    match a with
    | ⟨0, _⟩ =>
      show (i 1).val = if n = 1 then 0 else (i 1).val
      split
      · have := (i 1).isLt; have e : (i 1).val < n := this; omega
      · rfl)
  exact e1.trans e2.symm

/-- A one-row matrix flattened to a vector and broadcast back along axis 1 is the one-row matrix. -/
theorem bcast_cast_oneRow {α : Type} {n : ℕ} (r : (⟨2, ![1, n]⟩ : Shape).Idx → α)
    (hc : (⟨2, ![1, n]⟩ : Shape).ShapeCasts ⟨1, ![n]⟩) (hb : (⟨1, ![n]⟩ : Shape).BroadcastsInDim ⟨2, ![1, n]⟩ ![1]) :
    broadcastInDim ⟨2, ![1, n]⟩ ![1] hb (shapeCast ⟨1, ![n]⟩ r hc) = r := by
  funext i
  have e2 := broadcastInDim_apply ![1] hb (shapeCast ⟨1, ![n]⟩ r hc) i (ix1 (i 1 : Fin n)) (by
    intro a
    match a with
    | ⟨0, _⟩ =>
      show (i 1).val = if n = 1 then 0 else (i 1).val
      split
      · have := (i 1).isLt; have e : (i 1).val < n := this; omega
      · rfl)
  have e1 := shapeCast_apply r hc (ix1 (i 1 : Fin n)) i (by
    rw [Shape.rowMajor_val_two, Shape.rowMajor_val_one]
    have h0 : (i 0).val < 1 := (i 0).isLt
    show (i 0).val * n + (i 1).val = (i 1).val
    have : (i 0).val = 0 := by omega
    rw [this]; omega)
  exact e2.trans e1

/-- The host's dense layer of a whole matrix is `denseArr`. -/
theorem host_dense_eq {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1]) :
    addf (Host.dotGeneral (DotDims.plain m k n) none x w) (broadcastInDim ⟨2, ![m, n]⟩ ![0, 1] hbc b) = denseArr x w b := by
  funext i
  obtain ⟨p, q, rfl⟩ : ∃ (p : Fin m) (q : Fin n), i = ix2 p q := ⟨i 0, i 1, eq_ix2 i⟩
  exact host_dense_apply x w b hbc p q

/-- The host's rectified dense layer of a whole matrix, entry by entry. -/
theorem host_relu_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (h0 : (⟨0, ![]⟩ : Shape).BroadcastsInDim ⟨2, ![m, n]⟩ ![]) (p : Fin m) (q : Fin n) :
    maximumf (addf (Host.dotGeneral (DotDims.plain m k n) none x w) (broadcastInDim ⟨2, ![m, n]⟩ ![0, 1] hbc b))
        (broadcastInDim ⟨2, ![m, n]⟩ ![] h0 (constant (F := Ideal) ⟨0, ![]⟩ .f32 0x00000000#32)) (ix2 p q)
      = relu (denseRow (fun c => x (ix2 p c)) w b q) :=
  (host_relu_apply _ h0 _).trans (congrArg relu (host_dense_apply x w b hbc p q))

end Cert.LibDenseRows

end
-- ==== Proof.Stages.lean ====
/-
  The stretches of host operations between the launches, each as one function of what it reads.

  Both programs gather node rows along the edges, add the projected edge attributes, rectify, and scatter-add the
  messages back onto the nodes; both pool node rows into candidate means and candidate means into frontier means by
  scatter-add and a clamped count; both spell these with the same host operations. Each such stretch is named here once,
  as a function of the arrays it reads, so that the two programs can be compared without ever opening a gather or a
  scatter: only the arrays going in have to be shown equal.  The dense parts (what a launch computes) are stated row by
  row through the functions of the dense-layer module.
-/
import proofs.«111067_j16716012716419_1_alg».proof.Proof.Gen.KernelIdeal
import proofs.«111067_j16716012716419_1_alg».proof.Proof.LibDenseRows

noncomputable section

namespace Cert.KernelIdeal.Stages

open Idealize.ShloMosaic Cert.KernelIdeal Cert.KernelIdeal.Facts₀ Cert.LibDenseRows

/-- The source column of the edge list. -/
def srcCol (ei : IVec S2x800000 32) : IVec S800000 32 :=
  shapeCast _ (extractStridedSlice S1x800000 ![0, 0] ei slices_S2x800000_S1x800000_0_0) shapeCasts_S1x800000_S800000

/-- The destination column of the edge list. -/
def dstCol (ei : IVec S2x800000 32) : IVec S800000 32 :=
  shapeCast _ (extractStridedSlice S1x800000 ![1, 0] ei slices_S2x800000_S1x800000_1_0) shapeCasts_S1x800000_S800000

/-- One round of message passing before the update: for every edge the source node's row plus the projected edge
    attribute, rectified, summed onto the destination node; plus the node's own row. -/
def hop (x : FVec Ideal S50000x128 .f32) (s d : IVec S800000 32) (ea : FVec Ideal S800000x1 .f32) (eW : FVec Ideal S1x128 .f32) (eb : FVec Ideal S128 .f32) :
    FVec Ideal S50000x128 .f32 :=
  addf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (maximumf
        (addf
          (Host.gather gather_S50000x128_S800000x1_S800000x128_1_0_n_n_0_1_1128 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))
          (addf (Host.dotGeneral dot_S800000x1_S1x128_S800000x128_1_0_0_1_n_n none ea eW)
            (broadcastInDim S800000x128 ![0, 1] bcast_S1x128_S800000x128_0_1 (broadcastInDim S1x128 ![1] bcast_S128_S1x128_1 eb))))
        (broadcastInDim S800000x128 ![] bcast_S_S800000x128 (constant S_ .f32 0x00000000#32))))
    x

/-- The mean of the node rows pooled into each candidate, the count clamped below by one. -/
def poolMean (x : FVec Ideal S50000x128 .f32) (pni pm : IVec S200000 32) : FVec Ideal S20000x128 .f32 :=
  Host.divf
    (Host.scatterAdd scatter_S20000x128_S200000x1_S200000x128_1_0_0_1
      (broadcastInDim S20000x128 ![] bcast_S_S20000x128 (constant S_ .f32 0x00000000#32))
      (broadcastInDim S200000x1 ![0] bcast_S200000_S200000x1_0 pm)
      (Host.gather gather_S50000x128_S200000x1_S200000x128_1_0_n_n_0_1_1128 x (broadcastInDim S200000x1 ![0] bcast_S200000_S200000x1_0 (select (cmpi .slt pni (broadcastInDim S200000 ![] bcast_S_S200000 (constantI S_ 32 0#32))) (addi pni (broadcastInDim S200000 ![] bcast_S_S200000 (constantI S_ 32 50000#32))) pni))))
    (broadcastInDim S20000x128 ![0, 1] bcast_S20000x1_S20000x128_0_1
      (maximumf
        (Host.scatterAdd scatter_S20000x1_S200000x1_S200000x1_1_0_0_1
          (broadcastInDim S20000x1 ![] bcast_S_S20000x1 (constant S_ .f32 0x00000000#32))
          (broadcastInDim S200000x1 ![0] bcast_S200000_S200000x1_0 pm)
          (broadcastInDim S200000x1 ![] bcast_S_S200000x1 (constant S_ .f32 0x3F800000#32)))
        (broadcastInDim S20000x1 ![] bcast_S_S20000x1 (constant S_ .f32 0x3F800000#32))))

/-- Each candidate's frontier context: the mean of the candidate means of its frontier (count clamped below by one),
    read back per candidate. -/
def ctxOf (z : FVec Ideal S20000x128 .f32) (cb : IVec S20000 32) : FVec Ideal S20000x128 .f32 :=
  Host.gather gather_S2048x128_S20000x1_S20000x128_1_0_n_n_0_1_1128
    (Host.divf
      (Host.scatterAdd scatter_S2048x128_S20000x1_S20000x128_1_0_0_1
        (broadcastInDim S2048x128 ![] bcast_S_S2048x128 (constant S_ .f32 0x00000000#32))
        (broadcastInDim S20000x1 ![0] bcast_S20000_S20000x1_0 cb) z)
      (broadcastInDim S2048x128 ![0, 1] bcast_S2048x1_S2048x128_0_1
        (maximumf
          (Host.scatterAdd scatter_S2048x1_S20000x1_S20000x1_1_0_0_1
            (broadcastInDim S2048x1 ![] bcast_S_S2048x1 (constant S_ .f32 0x00000000#32))
            (broadcastInDim S20000x1 ![0] bcast_S20000_S20000x1_0 cb)
            (broadcastInDim S20000x1 ![] bcast_S_S20000x1 (constant S_ .f32 0x3F800000#32)))
          (broadcastInDim S2048x1 ![] bcast_S_S2048x1 (constant S_ .f32 0x3F800000#32)))))
    (broadcastInDim S20000x1 ![0] bcast_S20000_S20000x1_0 (select (cmpi .slt cb (broadcastInDim S20000 ![] bcast_S_S20000 (constantI S_ 32 0#32))) (addi cb (broadcastInDim S20000 ![] bcast_S_S20000 (constantI S_ 32 2048#32))) cb))

/-- A candidate's mean beside its frontier context, along the feature axis. -/
def zcOf (z ctx : FVec Ideal S20000x128 .f32) : FVec Ideal S20000x256 .f32 :=
  concatenate S20000x256 1 [⟨S20000x128, z⟩, ⟨S20000x128, ctx⟩] concatenates_S20000x128_S20000x128_S20000x256_d1

/-- Layer 0, 1, 2 of a stack of three square weight matrices. -/
def w0 (cw : FVec Ideal S3x128x128 .f32) : FVec Ideal S128x128 .f32 :=
  shapeCast _ (extractStridedSlice S1x128x128 ![0, 0, 0] cw slices_S3x128x128_S1x128x128_0_0_0) shapeCasts_S1x128x128_S128x128
def w1 (cw : FVec Ideal S3x128x128 .f32) : FVec Ideal S128x128 .f32 :=
  shapeCast _ (extractStridedSlice S1x128x128 ![1, 0, 0] cw slices_S3x128x128_S1x128x128_1_0_0) shapeCasts_S1x128x128_S128x128
def w2 (cw : FVec Ideal S3x128x128 .f32) : FVec Ideal S128x128 .f32 :=
  shapeCast _ (extractStridedSlice S1x128x128 ![2, 0, 0] cw slices_S3x128x128_S1x128x128_2_0_0) shapeCasts_S1x128x128_S128x128

/-- Row 0, 1, 2 of a stack of three bias vectors, as a one-row matrix. -/
def b0 (cb : FVec Ideal S3x128 .f32) : FVec Ideal S1x128 .f32 := extractStridedSlice S1x128 ![0, 0] cb slices_S3x128_S1x128_0_0
def b1 (cb : FVec Ideal S3x128 .f32) : FVec Ideal S1x128 .f32 := extractStridedSlice S1x128 ![1, 0] cb slices_S3x128_S1x128_1_0
def b2 (cb : FVec Ideal S3x128 .f32) : FVec Ideal S1x128 .f32 := extractStridedSlice S1x128 ![2, 0] cb slices_S3x128_S1x128_2_0

/-- A bias vector as a one-row matrix. -/
def row (b : FVec Ideal S128 .f32) : FVec Ideal S1x128 .f32 := shapeCast S1x128 b shapeCasts_S128_S1x128

/-- The node features after the input projection. -/
def feat0 (a0 : FVec Ideal S50000x64 .f32) (a8 : FVec Ideal S64x128 .f32) (a9 : FVec Ideal S128 .f32) : FVec Ideal S50000x128 .f32 :=
  denseArr (m := 50000) (k := 64) (n := 128) a0 a8 (row a9)

/-- One message-passing layer: the hop, then the two rectified dense layers with the given weights and bias rows. -/
def layer (x : FVec Ideal S50000x128 .f32) (a1 : IVec S2x800000 32) (a2 : FVec Ideal S800000x1 .f32) (a10 : FVec Ideal S1x128 .f32) (a11 : FVec Ideal S128 .f32)
    (wa : FVec Ideal S128x128 .f32) (ba : FVec Ideal S1x128 .f32) (wb : FVec Ideal S128x128 .f32) (bb : FVec Ideal S1x128 .f32) : FVec Ideal S50000x128 .f32 :=
  mlp2Arr (m := 50000) (k := 128) (h := 128) (n := 128) (hop x (srcCol a1) (dstCol a1) a2 a10 a11) wa ba wb bb

/-- The node features after the three layers. -/
def feat3 (a0 : FVec Ideal S50000x64 .f32) (a1 : IVec S2x800000 32) (a2 : FVec Ideal S800000x1 .f32) (a8 : FVec Ideal S64x128 .f32) (a9 : FVec Ideal S128 .f32)
    (a10 : FVec Ideal S1x128 .f32) (a11 : FVec Ideal S128 .f32) (a12 : FVec Ideal S3x128x128 .f32) (a13 : FVec Ideal S3x128 .f32) (a14 : FVec Ideal S3x128x128 .f32)
    (a15 : FVec Ideal S3x128 .f32) : FVec Ideal S50000x128 .f32 :=
  layer (layer (layer (feat0 a0 a8 a9) a1 a2 a10 a11 (w0 a12) (b0 a13) (w0 a14) (b0 a15))
      a1 a2 a10 a11 (w1 a12) (b1 a13) (w1 a14) (b1 a15))
    a1 a2 a10 a11 (w2 a12) (b2 a13) (w2 a14) (b2 a15)

/-- The candidates' pooled features: mean beside context. -/
def pooled (x : FVec Ideal S50000x128 .f32) (a4 : IVec S20000 32) (a6 a7 : IVec S200000 32) : FVec Ideal S20000x256 .f32 :=
  zcOf (poolMean x a6 a7) (ctxOf (poolMean x a6 a7) a4)

end Cert.KernelIdeal.Stages

end
-- ==== Proof.Spec.lean ====
/-
  The kernel's result as one function of the argument arrays.

  The head's last weight column and bias are padded with zeros to 128 lanes, the head's three layers are applied to the
  pooled candidate features, and the result is column 0 of that where the mask is set and the sentinel elsewhere.
-/
import proofs.«111067_j16716012716419_1_alg».proof.Proof.Stages

noncomputable section

namespace Cert.KernelIdeal.Stages

open Idealize.ShloMosaic Cert.KernelIdeal Cert.KernelIdeal.Facts₀ Cert.LibDenseRows

/-- The last weight column padded with zero columns to 128 lanes. -/
def padW (a20 : FVec Ideal S128x1 .f32) : FVec Ideal S128x128 .f32 :=
  pad S128x128 ![0, 0] ![0, 127] ![0, 0] a20 (sitofp (F := Ideal) .f32 (constantI S_ 32 0#32)) pads_S128x1_S128x128_000_01270 h_S_

/-- The last bias padded with zeros to 128 lanes. -/
def padB (a21 : FVec Ideal S1 .f32) : FVec Ideal S128 .f32 :=
  pad S128 ![0] ![127] ![0] a21 (sitofp (F := Ideal) .f32 (constantI S_ 32 0#32)) pads_S1_S128_01270 h_S_

/-- The head's output array: the three layers of the pooled features, the last one zero-padded to 128 lanes. -/
def logitsPad (zc : FVec Ideal S20000x256 .f32) (a16 : FVec Ideal S256x128 .f32) (a17 : FVec Ideal S128 .f32)
    (a18 : FVec Ideal S128x128 .f32) (a19 : FVec Ideal S128 .f32) (a20 : FVec Ideal S128x1 .f32) (a21 : FVec Ideal S1 .f32) :
    FVec Ideal S20000x128 .f32 :=
  mlp3Arr (m := 20000) (k := 256) (h := 128) (g := 128) (n := 128) zc a16 (row a17) a18 (row a19) (padW a20) (row (padB a21))

/-- Column 0 of the head's output, as a vector over the candidates. -/
def col0 (lp : FVec Ideal S20000x128 .f32) : FVec Ideal S20000 .f32 :=
  shapeCast S20000 (extractStridedSlice S20000x1 ![0, 0] lp slices_S20000x128_S20000x1_0_0) shapeCasts_S20000x1_S20000

/-- The masked result: the given logits where the mask is set, the sentinel elsewhere. -/
def masked (a5 : IVec S20000 1) (v : FVec Ideal S20000 .f32) : FVec Ideal S20000 .f32 :=
  select a5 v (broadcastInDim S20000 ![] bcast_S_S20000 (constant (F := Ideal) S_ .f32 0xCE6E6B28#32))

end Cert.KernelIdeal.Stages

end
-- ==== Proof.Payloads.lean ====
/-
  What each of the three kernel bodies stores, read at one entry of its block of rows.

  The input projection stores  x · W + b ; the message-passing update stores  relu(relu(h · W1 + b1) · W2 + b2) ; the
  head stores  relu(relu(z · W0 + b0) · W1 + b1) · W2 + b2 .  In every case entry (p, q) of the stored block is a
  function of row p of the block of rows the body loaded, and of the weights and biases, which the body loads whole.
  The narrowing of the matrix unit's operands to bf16 is the identity on the extended reals.
-/
import proofs.«111067_j16716012716419_1_alg».proof.Proof.Gen.KernelIdeal.Skeleton
import proofs.«111067_j16716012716419_1_alg».proof.Proof.LibDenseRows

noncomputable section

namespace Cert.KernelIdeal.Payloads

open Idealize.ShloMosaic Idealize.ShloMosaic.ValueIdx Cert.KernelIdeal Cert.KernelIdeal.Gen Cert.LibDenseRows

/-- The input projection's block at (p, q): row p of the node features through the dense layer. -/
theorem linear_apply (v0 : Vec Ideal S5000x64 .f32) (v2 : Vec Ideal S64x128 .f32) (v5 : Vec Ideal S1x128 .f32)
    (p : Fin 5000) (q : Fin 128) :
    k0_pay1 (F := Ideal) v0 v2 v5 (ix2 p q) = denseRow (fun c => v0 (ix2 p c)) v2 v5 q := by
  unfold k0_pay1
  simp only [shapeCast_self]
  exact kernel_dense_apply (m := 5000) (k := 64) (n := 128) _ _ v5 _ p q

/-- The update's block at (p, q): row p of the aggregated features through the two rectified layers. -/
theorem conv_apply (v0 : Vec Ideal S5000x128 .f32) (v3 : Vec Ideal S128x128 .f32) (v7 : Vec Ideal S1x128 .f32)
    (v14 : Vec Ideal S128x128 .f32) (v18 : Vec Ideal S1x128 .f32) (p : Fin 5000) (q : Fin 128) :
    k1_pay1 (F := Ideal) v0 v3 v7 v14 v18 (ix2 p q) = mlp2Row (fun c => v0 (ix2 p c)) v3 v7 v14 v18 q := by
  unfold k1_pay1
  simp only [shapeCast_self]
  refine (kernel_relu_apply _ _).trans (congrArg relu ?_)
  refine (kernel_dense_apply (m := 5000) (k := 128) (n := 128) _ _ v18 _ p q).trans ?_
  refine congrArg (fun r => denseRow r v14 v18 q) (funext fun c => ?_)
  refine (kernel_relu_apply _ _).trans (congrArg relu ?_)
  exact kernel_dense_apply (m := 5000) (k := 128) (n := 128) _ _ v7 _ p c

/-- The three update kernels are one body. -/
theorem k2_eq_k1 : @k2_pay1 = @k1_pay1 := rfl
theorem k3_eq_k1 : @k3_pay1 = @k1_pay1 := rfl

/-- The head's block at (p, q): row p of the pooled features through the three layers. -/
theorem head_apply (v0 : Vec Ideal S2000x256 .f32) (v3 : Vec Ideal S256x128 .f32) (v6 : Vec Ideal S1x128 .f32)
    (v13 : Vec Ideal S128x128 .f32) (v16 : Vec Ideal S1x128 .f32) (v23 : Vec Ideal S128x128 .f32) (v27 : Vec Ideal S1x128 .f32)
    (p : Fin 2000) (q : Fin 128) :
    k4_pay1 (F := Ideal) v0 v3 v6 v13 v16 v23 v27 (ix2 p q) = mlp3Row (fun c => v0 (ix2 p c)) v3 v6 v13 v16 v23 v27 q := by
  unfold k4_pay1
  simp only [shapeCast_self]
  refine (kernel_dense_apply (m := 2000) (k := 128) (n := 128) _ _ v27 _ p q).trans ?_
  refine congrArg (fun r => denseRow r v23 v27 q) (funext fun d => ?_)
  refine (kernel_relu_apply _ _).trans (congrArg relu ?_)
  refine (kernel_dense_apply (m := 2000) (k := 128) (n := 128) _ _ v16 _ p d).trans ?_
  refine congrArg (fun r => denseRow r v13 v16 d) (funext fun c => ?_)
  refine (kernel_relu_apply _ _).trans (congrArg relu ?_)
  exact kernel_dense_apply (m := 2000) (k := 256) (n := 128) _ _ v6 _ p c

end Cert.KernelIdeal.Payloads

end
-- ==== Proof.Region0.lean ====
/-
  The input projection's launch: what its output array holds when the launch is over.

  The launch has ten grid points. Point t loads rows 5000·t … 5000·t + 4999 of the node features, the whole weight
  matrix and the whole bias row, and writes back rows 5000·t … 5000·t + 4999 of the output. Entry (p, q) of the block it
  writes is row p of its block of features through the dense layer, which is row 5000·t + p of the feature array through
  the dense layer; the ten blocks tile the output. So the output array is the dense layer of the feature array, row by
  row, whatever the launch found in its three input arrays.
-/
import proofs.«111067_j16716012716419_1_alg».proof.Proof.Gen.KernelIdeal.Frame
import proofs.«111067_j16716012716419_1_alg».proof.Proof.Payloads
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.LibDenseRows Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature and output windows move one block of rows per point, the weight
    and bias windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- Every block of rows of the output is some point's. -/
theorem idx_onto : ∀ q0 : Fin 10, ∃ t : Fin cfg0.N, win0_3.index t (0 : Fin 2) = q0.val ∧ win0_3.index t (1 : Fin 2) = 0 :=
  (by decide +kernel : ∀ q0 : Fin 10, ∃ t : Fin grid0.N, win0_3.index t (0 : Fin 2) = q0.val ∧ win0_3.index t (1 : Fin 2) = 0)

/-- The output array: the dense layer of the arrays the launch finds, row by row. -/
abbrev out (c : Dev nD) : S50000x128.Idx → EReal :=
  denseArr (m := 50000) (k := 64) (n := 128) (V c main_arg0) (V c main_arg8) (V c main_v4)

/-- Point t's block of features is rows 5000·t … of the feature array. -/
theorem rows_apply (c : Dev nD) (t : Fin cfg0.N) (y : S5000x64.Idx) (k : S50000x64.Idx)
    (hk0 : (k 0).val = 5000 * t.val + (y 0).val) (hk1 : (k 1).val = (y 1).val) :
    (iblk0 V c 0 t : Vec Ideal S5000x64 .f32) y = (V c main_arg0 : S50000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 64 + 1 * (y 1).val = (k 1).val; rw [e1, hk1]; omega

/-- Every point's block of weights is the weight array. -/
theorem weights_eq (c : Dev nD) (t : Fin cfg0.N) :
    (iblk0 V c 1 t : Vec Ideal S64x128 .f32) = (V c main_arg8 : S64x128.Idx → EReal) := by
  obtain ⟨-, -, e2, e3, -⟩ := idx_facts t
  funext y
  unfold iblk0
  rw [View.read_apply]
  show V c main_arg8 _ = V c main_arg8 y
  congr 1
  funext a
  apply Fin.ext
  match a with
  | ⟨0, _⟩ => show win0_1.index t 0 * 64 + 1 * (y 0).val = (y 0).val; rw [e2]; omega
  | ⟨1, _⟩ => show win0_1.index t 1 * 128 + 1 * (y 1).val = (y 1).val; rw [e3]; omega

/-- Every point's block of the bias row is the bias row. -/
theorem bias_eq (c : Dev nD) (t : Fin cfg0.N) :
    (iblk0 V c 2 t : Vec Ideal S1x128 .f32) = (V c main_v4 : S1x128.Idx → EReal) := by
  obtain ⟨-, -, -, -, e4, e5, -⟩ := idx_facts t
  funext y
  unfold iblk0
  rw [View.read_apply]
  show V c main_v4 _ = V c main_v4 y
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- What point t writes back is block t of the output array. -/
theorem flushed_eq (c : Dev nD) (t : Fin cfg0.N) :
    (dat0 V c).flushed 3 t = ((cfg0.win 3).blk t).view.read (Elt Ideal) (out V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  rw [weights_eq V c t, bias_eq V c t]
  obtain ⟨-, -, -, -, -, -, e6, e7, ht⟩ := idx_facts t
  funext j
  obtain ⟨p, q, rfl⟩ : ∃ (p : Fin 5000) (q : Fin 128), j = ix2 p q := ⟨j 0, j 1, eq_ix2 j⟩
  have hrow : (5000 * t.val + p.val) < 50000 := by have := p.isLt; omega
  have hemb : ((cfg0.win 3).blk t).view.emb (ix2 p q) = (ix2 (⟨5000 * t.val + p.val, hrow⟩ : Fin 50000) q : S50000x128.Idx) := by
    funext a
    apply Fin.ext
    match a with
    | ⟨0, _⟩ => show win0_3.index t 0 * 5000 + 1 * p.val = 5000 * t.val + p.val; rw [e6]; omega
    | ⟨1, _⟩ => show win0_3.index t 1 * 128 + 1 * q.val = q.val; rw [e7]; omega
  show k0_pay1 (iblk0 V c 0 t) (V c main_arg8) (V c main_v4) (ix2 p q) = out V c (((cfg0.win 3).blk t).view.emb (ix2 p q))
  rw [hemb]
  refine (linear_apply (iblk0 V c 0 t) (V c main_arg8) (V c main_v4) p q).trans ?_
  show denseRow _ _ _ q = denseRow _ _ _ q
  refine congrArg (fun r => denseRow r (V c main_arg8) (V c main_v4) q) (funext fun cc => ?_)
  exact rows_apply V c t (ix2 p cc) (ix2 (⟨5000 * t.val + p.val, hrow⟩ : Fin 50000) cc) rfl rfl

/-- An index of the output array is in point t's block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- The ten blocks cover the output array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, q0, q1⟩ := idx_onto ⟨(i 0).val / 5000, by omega⟩
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [q0]; show (i 0).val / 5000 * 5000 ≤ (i 0).val ∧ (i 0).val < (i 0).val / 5000 * 5000 + 5000; omega
  | ⟨1, _⟩ => show win0_3.index t (1 : Fin 2) * 128 ≤ (i 1).val ∧ (i 1).val < win0_3.index t (1 : Fin 2) * 128 + 128; rw [q1]; omega

/-- The output array after the launch. -/
theorem final (c : Dev nD) : (dat0 V c).arrAt 3 cfg0.N = out V c :=
  (dat0 V c).arrAt_eq_of_cover 3 (out V c) (fun t _ => flushed_eq V c t) (cover)

end Cert.KernelIdeal.Region0

end
-- ==== Proof.Region1.lean ====
/-
  The message-passing update's launch number 1: what its output array holds when the launch is over.

  The launch has ten grid points. Point t loads rows 5000·t … 5000·t + 4999 of the aggregated features and the two
  weight matrices and two bias rows whole, and writes back rows 5000·t … 5000·t + 4999 of the output. Entry (p, q) of
  the block it writes is row p of its block through the two rectified dense layers, which is row 5000·t + p of the
  aggregated features through them; the ten blocks tile the output. So the output array is the two rectified layers of
  the aggregated features, row by row, whatever the launch found in its five input arrays.
-/
import proofs.«111067_j16716012716419_1_alg».proof.Proof.Gen.KernelIdeal.Frame
import proofs.«111067_j16716012716419_1_alg».proof.Proof.Payloads
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.LibDenseRows Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature and output windows move one block of rows per point, the weight
    and bias windows stay on their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Every block of rows of the output is some point's. -/
theorem idx_onto : ∀ q0 : Fin 10, ∃ t : Fin cfg1.N, win1_5.index t (0 : Fin 2) = q0.val ∧ win1_5.index t (1 : Fin 2) = 0 :=
  (by decide +kernel : ∀ q0 : Fin 10, ∃ t : Fin grid1.N, win1_5.index t (0 : Fin 2) = q0.val ∧ win1_5.index t (1 : Fin 2) = 0)

/-- The output array: the two rectified layers of the arrays the launch finds, row by row. -/
abbrev out (c : Dev nD) : S50000x128.Idx → EReal :=
  mlp2Arr (m := 50000) (k := 128) (h := 128) (n := 128) (V c main_v22) (V c main_v24) (V c main_v31) (V c main_v28) (V c main_v32)

/-- Point t's block of features is rows 5000·t … of the aggregated features. -/
theorem rows_apply (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c main_v22 : S50000x128.Idx → EReal) k := by
  have e := idx_facts t
  unfold iblk1
  rw [View.read_apply]
  show V c main_v22 _ = V c main_v22 _
  congr 1
  funext a
  apply Fin.ext
  match a with
  | ⟨0, _⟩ => show win1_0.index t 0 * 5000 + 1 * (y 0).val = (k 0).val; rw [e.1, hk0]; omega
  | ⟨1, _⟩ => show win1_0.index t 1 * 128 + 1 * (y 1).val = (k 1).val; rw [e.2.1, hk1]; omega

/-- Every point's block of the first weight matrix is the matrix. -/
theorem w1_eq (c : Dev nD) (t : Fin cfg1.N) :
    (iblk1 V c 1 t : Vec Ideal S128x128 .f32) = (V c main_v24 : S128x128.Idx → EReal) := by
  have e := idx_facts t
  funext y
  unfold iblk1
  rw [View.read_apply]
  show V c main_v24 _ = V c main_v24 y
  congr 1
  funext a
  apply Fin.ext
  match a with
  | ⟨0, _⟩ => show win1_1.index t 0 * 128 + 1 * (y 0).val = (y 0).val; rw [e.2.2.1]; omega
  | ⟨1, _⟩ => show win1_1.index t 1 * 128 + 1 * (y 1).val = (y 1).val; rw [e.2.2.2.1]; omega

/-- Every point's block of the first bias row is the row. -/
theorem b1_eq (c : Dev nD) (t : Fin cfg1.N) :
    (iblk1 V c 2 t : Vec Ideal S1x128 .f32) = (V c main_v31 : S1x128.Idx → EReal) := by
  have e := idx_facts t
  funext y
  unfold iblk1
  rw [View.read_apply]
  show V c main_v31 _ = V c main_v31 y
  congr 1
  funext a
  apply Fin.ext
  match a with
  | ⟨0, _⟩ => show win1_2.index t 0 * 1 + 1 * (y 0).val = (y 0).val; rw [e.2.2.2.2.1]; omega
  | ⟨1, _⟩ => show win1_2.index t 1 * 128 + 1 * (y 1).val = (y 1).val; rw [e.2.2.2.2.2.1]; omega

/-- Every point's block of the second weight matrix is the matrix. -/
theorem w2_eq (c : Dev nD) (t : Fin cfg1.N) :
    (iblk1 V c 3 t : Vec Ideal S128x128 .f32) = (V c main_v28 : S128x128.Idx → EReal) := by
  have e := idx_facts t
  funext y
  unfold iblk1
  rw [View.read_apply]
  show V c main_v28 _ = V c main_v28 y
  congr 1
  funext a
  apply Fin.ext
  match a with
  | ⟨0, _⟩ => show win1_3.index t 0 * 128 + 1 * (y 0).val = (y 0).val; rw [e.2.2.2.2.2.2.1]; omega
  | ⟨1, _⟩ => show win1_3.index t 1 * 128 + 1 * (y 1).val = (y 1).val; rw [e.2.2.2.2.2.2.2.1]; omega

/-- Every point's block of the second bias row is the row. -/
theorem b2_eq (c : Dev nD) (t : Fin cfg1.N) :
    (iblk1 V c 4 t : Vec Ideal S1x128 .f32) = (V c main_v32 : S1x128.Idx → EReal) := by
  have e := idx_facts t
  funext y
  unfold iblk1
  rw [View.read_apply]
  show V c main_v32 _ = V c main_v32 y
  congr 1
  funext a
  apply Fin.ext
  match a with
  | ⟨0, _⟩ => show win1_4.index t 0 * 1 + 1 * (y 0).val = (y 0).val; rw [e.2.2.2.2.2.2.2.2.1]; omega
  | ⟨1, _⟩ => show win1_4.index t 1 * 128 + 1 * (y 1).val = (y 1).val; rw [e.2.2.2.2.2.2.2.2.2.1]; omega

/-- What point t writes back is block t of the output array. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [w1_eq V c t, b1_eq V c t, w2_eq V c t, b2_eq V c t]
  have e := idx_facts t
  have e6 := e.2.2.2.2.2.2.2.2.2.2.1
  have e7 := e.2.2.2.2.2.2.2.2.2.2.2.1
  have ht := e.2.2.2.2.2.2.2.2.2.2.2.2
  funext j
  obtain ⟨p, q, rfl⟩ : ∃ (p : Fin 5000) (q : Fin 128), j = ix2 p q := ⟨j 0, j 1, eq_ix2 j⟩
  have hrow : (5000 * t.val + p.val) < 50000 := by have := p.isLt; omega
  have hemb : ((cfg1.win 5).blk t).view.emb (ix2 p q) = (ix2 (⟨5000 * t.val + p.val, hrow⟩ : Fin 50000) q : S50000x128.Idx) := by
    funext a
    apply Fin.ext
    match a with
    | ⟨0, _⟩ => show win1_5.index t 0 * 5000 + 1 * p.val = 5000 * t.val + p.val; rw [e6]; omega
    | ⟨1, _⟩ => show win1_5.index t 1 * 128 + 1 * q.val = q.val; rw [e7]; omega
  show k1_pay1 (iblk1 V c 0 t) (V c main_v24) (V c main_v31) (V c main_v28) (V c main_v32) (ix2 p q) = out V c (((cfg1.win 5).blk t).view.emb (ix2 p q))
  rw [hemb]
  refine (conv_apply (iblk1 V c 0 t) (V c main_v24) (V c main_v31) (V c main_v28) (V c main_v32) p q).trans ?_
  show mlp2Row _ _ _ _ _ q = mlp2Row _ _ _ _ _ q
  refine congrArg (fun r => mlp2Row r (V c main_v24) (V c main_v31) (V c main_v28) (V c main_v32) q) (funext fun cc => ?_)
  exact rows_apply V c t (ix2 p cc) (ix2 (⟨5000 * t.val + p.val, hrow⟩ : Fin 50000) cc) rfl rfl

/-- An index of the output array is in point t's block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- The ten blocks cover the output array. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, q0, q1⟩ := idx_onto ⟨(i 0).val / 5000, by omega⟩
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [q0]; show (i 0).val / 5000 * 5000 ≤ (i 0).val ∧ (i 0).val < (i 0).val / 5000 * 5000 + 5000; omega
  | ⟨1, _⟩ => show win1_5.index t (1 : Fin 2) * 128 ≤ (i 1).val ∧ (i 1).val < win1_5.index t (1 : Fin 2) * 128 + 128; rw [q1]; omega

/-- The output array after the launch. -/
theorem final (c : Dev nD) : (dat1 V c).arrAt 5 cfg1.N = out V c :=
  (dat1 V c).arrAt_eq_of_cover 5 (out V c) (fun t _ => flushed_eq V c t) (cover)

end Cert.KernelIdeal.Region1

end
-- ==== Proof.Region2.lean ====
/-
  The message-passing update's launch number 2: what its output array holds when the launch is over.

  The launch has ten grid points. Point t loads rows 5000·t … 5000·t + 4999 of the aggregated features and the two
  weight matrices and two bias rows whole, and writes back rows 5000·t … 5000·t + 4999 of the output. Entry (p, q) of
  the block it writes is row p of its block through the two rectified dense layers, which is row 5000·t + p of the
  aggregated features through them; the ten blocks tile the output. So the output array is the two rectified layers of
  the aggregated features, row by row, whatever the launch found in its five input arrays.
-/
import proofs.«111067_j16716012716419_1_alg».proof.Proof.Gen.KernelIdeal.Frame
import proofs.«111067_j16716012716419_1_alg».proof.Proof.Payloads
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.LibDenseRows Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature and output windows move one block of rows per point, the weight
    and bias windows stay on their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- Every block of rows of the output is some point's. -/
theorem idx_onto : ∀ q0 : Fin 10, ∃ t : Fin cfg2.N, win2_5.index t (0 : Fin 2) = q0.val ∧ win2_5.index t (1 : Fin 2) = 0 :=
  (by decide +kernel : ∀ q0 : Fin 10, ∃ t : Fin grid2.N, win2_5.index t (0 : Fin 2) = q0.val ∧ win2_5.index t (1 : Fin 2) = 0)

/-- The output array: the two rectified layers of the arrays the launch finds, row by row. -/
abbrev out (c : Dev nD) : S50000x128.Idx → EReal :=
  mlp2Arr (m := 50000) (k := 128) (h := 128) (n := 128) (V c main_v50) (V c main_v52) (V c main_v59) (V c main_v56) (V c main_v60)

/-- Point t's block of features is rows 5000·t … of the aggregated features. -/
theorem rows_apply (c : Dev nD) (t : Fin cfg2.N) (y : S5000x128.Idx) (k : S50000x128.Idx)
    (hk0 : (k 0).val = 5000 * t.val + (y 0).val) (hk1 : (k 1).val = (y 1).val) :
    (iblk2 V c 0 t : Vec Ideal S5000x128 .f32) y = (V c main_v50 : S50000x128.Idx → EReal) k := by
  have e := idx_facts t
  unfold iblk2
  rw [View.read_apply]
  show V c main_v50 _ = V c main_v50 _
  congr 1
  funext a
  apply Fin.ext
  match a with
  | ⟨0, _⟩ => show win2_0.index t 0 * 5000 + 1 * (y 0).val = (k 0).val; rw [e.1, hk0]; omega
  | ⟨1, _⟩ => show win2_0.index t 1 * 128 + 1 * (y 1).val = (k 1).val; rw [e.2.1, hk1]; omega

/-- Every point's block of the first weight matrix is the matrix. -/
theorem w1_eq (c : Dev nD) (t : Fin cfg2.N) :
    (iblk2 V c 1 t : Vec Ideal S128x128 .f32) = (V c main_v52 : S128x128.Idx → EReal) := by
  have e := idx_facts t
  funext y
  unfold iblk2
  rw [View.read_apply]
  show V c main_v52 _ = V c main_v52 y
  congr 1
  funext a
  apply Fin.ext
  match a with
  | ⟨0, _⟩ => show win2_1.index t 0 * 128 + 1 * (y 0).val = (y 0).val; rw [e.2.2.1]; omega
  | ⟨1, _⟩ => show win2_1.index t 1 * 128 + 1 * (y 1).val = (y 1).val; rw [e.2.2.2.1]; omega

/-- Every point's block of the first bias row is the row. -/
theorem b1_eq (c : Dev nD) (t : Fin cfg2.N) :
    (iblk2 V c 2 t : Vec Ideal S1x128 .f32) = (V c main_v59 : S1x128.Idx → EReal) := by
  have e := idx_facts t
  funext y
  unfold iblk2
  rw [View.read_apply]
  show V c main_v59 _ = V c main_v59 y
  congr 1
  funext a
  apply Fin.ext
  match a with
  | ⟨0, _⟩ => show win2_2.index t 0 * 1 + 1 * (y 0).val = (y 0).val; rw [e.2.2.2.2.1]; omega
  | ⟨1, _⟩ => show win2_2.index t 1 * 128 + 1 * (y 1).val = (y 1).val; rw [e.2.2.2.2.2.1]; omega

/-- Every point's block of the second weight matrix is the matrix. -/
theorem w2_eq (c : Dev nD) (t : Fin cfg2.N) :
    (iblk2 V c 3 t : Vec Ideal S128x128 .f32) = (V c main_v56 : S128x128.Idx → EReal) := by
  have e := idx_facts t
  funext y
  unfold iblk2
  rw [View.read_apply]
  show V c main_v56 _ = V c main_v56 y
  congr 1
  funext a
  apply Fin.ext
  match a with
  | ⟨0, _⟩ => show win2_3.index t 0 * 128 + 1 * (y 0).val = (y 0).val; rw [e.2.2.2.2.2.2.1]; omega
  | ⟨1, _⟩ => show win2_3.index t 1 * 128 + 1 * (y 1).val = (y 1).val; rw [e.2.2.2.2.2.2.2.1]; omega

/-- Every point's block of the second bias row is the row. -/
theorem b2_eq (c : Dev nD) (t : Fin cfg2.N) :
    (iblk2 V c 4 t : Vec Ideal S1x128 .f32) = (V c main_v60 : S1x128.Idx → EReal) := by
  have e := idx_facts t
  funext y
  unfold iblk2
  rw [View.read_apply]
  show V c main_v60 _ = V c main_v60 y
  congr 1
  funext a
  apply Fin.ext
  match a with
  | ⟨0, _⟩ => show win2_4.index t 0 * 1 + 1 * (y 0).val = (y 0).val; rw [e.2.2.2.2.2.2.2.2.1]; omega
  | ⟨1, _⟩ => show win2_4.index t 1 * 128 + 1 * (y 1).val = (y 1).val; rw [e.2.2.2.2.2.2.2.2.2.1]; omega

/-- What point t writes back is block t of the output array. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [w1_eq V c t, b1_eq V c t, w2_eq V c t, b2_eq V c t]
  have e := idx_facts t
  have e6 := e.2.2.2.2.2.2.2.2.2.2.1
  have e7 := e.2.2.2.2.2.2.2.2.2.2.2.1
  have ht := e.2.2.2.2.2.2.2.2.2.2.2.2
  funext j
  obtain ⟨p, q, rfl⟩ : ∃ (p : Fin 5000) (q : Fin 128), j = ix2 p q := ⟨j 0, j 1, eq_ix2 j⟩
  have hrow : (5000 * t.val + p.val) < 50000 := by have := p.isLt; omega
  have hemb : ((cfg2.win 5).blk t).view.emb (ix2 p q) = (ix2 (⟨5000 * t.val + p.val, hrow⟩ : Fin 50000) q : S50000x128.Idx) := by
    funext a
    apply Fin.ext
    match a with
    | ⟨0, _⟩ => show win2_5.index t 0 * 5000 + 1 * p.val = 5000 * t.val + p.val; rw [e6]; omega
    | ⟨1, _⟩ => show win2_5.index t 1 * 128 + 1 * q.val = q.val; rw [e7]; omega
  show k1_pay1 (iblk2 V c 0 t) (V c main_v52) (V c main_v59) (V c main_v56) (V c main_v60) (ix2 p q) = out V c (((cfg2.win 5).blk t).view.emb (ix2 p q))
  rw [hemb]
  refine (conv_apply (iblk2 V c 0 t) (V c main_v52) (V c main_v59) (V c main_v56) (V c main_v60) p q).trans ?_
  show mlp2Row _ _ _ _ _ q = mlp2Row _ _ _ _ _ q
  refine congrArg (fun r => mlp2Row r (V c main_v52) (V c main_v59) (V c main_v56) (V c main_v60) q) (funext fun cc => ?_)
  exact rows_apply V c t (ix2 p cc) (ix2 (⟨5000 * t.val + p.val, hrow⟩ : Fin 50000) cc) rfl rfl

/-- An index of the output array is in point t's block iff each coordinate is in the block's range. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v61).slice (win2_5.rect t)).set ↔ _
  rw [View.set_slice_whole, Rect.mem_set_unit]
  exact Iff.rfl

/-- The ten blocks cover the output array. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, q0, q1⟩ := idx_onto ⟨(i 0).val / 5000, by omega⟩
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [q0]; show (i 0).val / 5000 * 5000 ≤ (i 0).val ∧ (i 0).val < (i 0).val / 5000 * 5000 + 5000; omega
  | ⟨1, _⟩ => show win2_5.index t (1 : Fin 2) * 128 ≤ (i 1).val ∧ (i 1).val < win2_5.index t (1 : Fin 2) * 128 + 128; rw [q1]; omega

/-- The output array after the launch. -/
theorem final (c : Dev nD) : (dat2 V c).arrAt 5 cfg2.N = out V c :=
  (dat2 V c).arrAt_eq_of_cover 5 (out V c) (fun t _ => flushed_eq V c t) (cover)

end Cert.KernelIdeal.Region2

end
-- ==== Proof.Region3.lean ====
/-
  The message-passing update's launch number 3: what its output array holds when the launch is over.

  The launch has ten grid points. Point t loads rows 5000·t … 5000·t + 4999 of the aggregated features and the two
  weight matrices and two bias rows whole, and writes back rows 5000·t … 5000·t + 4999 of the output. Entry (p, q) of
  the block it writes is row p of its block through the two rectified dense layers, which is row 5000·t + p of the
  aggregated features through them; the ten blocks tile the output. So the output array is the two rectified layers of
  the aggregated features, row by row, whatever the launch found in its five input arrays.
-/
import proofs.«111067_j16716012716419_1_alg».proof.Proof.Gen.KernelIdeal.Frame
import proofs.«111067_j16716012716419_1_alg».proof.Proof.Payloads
import Idealize.ShloMosaic.Lib.Pipeline.Value

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.LibDenseRows Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature and output windows move one block of rows per point, the weight
    and bias windows stay on their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- Every block of rows of the output is some point's. -/
theorem idx_onto : ∀ q0 : Fin 10, ∃ t : Fin cfg3.N, win3_5.index t (0 : Fin 2) = q0.val ∧ win3_5.index t (1 : Fin 2) = 0 :=
  (by decide +kernel : ∀ q0 : Fin 10, ∃ t : Fin grid3.N, win3_5.index t (0 : Fin 2) = q0.val ∧ win3_5.index t (1 : Fin 2) = 0)

/-- The output array: the two rectified layers of the arrays the launch finds, row by row. -/
abbrev out (c : Dev nD) : S50000x128.Idx → EReal :=
  mlp2Arr (m := 50000) (k := 128) (h := 128) (n := 128) (V c main_v78) (V c main_v80) (V c main_v87) (V c main_v84) (V c main_v88)

/-- Point t's block of features is rows 5000·t … of the aggregated features. -/
theorem rows_apply (c : Dev nD) (t : Fin cfg3.N) (y : S5000x128.Idx) (k : S50000x128.Idx)
    (hk0 : (k 0).val = 5000 * t.val + (y 0).val) (hk1 : (k 1).val = (y 1).val) :
    (iblk3 V c 0 t : Vec Ideal S5000x128 .f32) y = (V c main_v78 : S50000x128.Idx → EReal) k := by
  have e := idx_facts t
  unfold iblk3
  rw [View.read_apply]
  show V c main_v78 _ = V c main_v78 _
  congr 1
  funext a
  apply Fin.ext
  match a with
  | ⟨0, _⟩ => show win3_0.index t 0 * 5000 + 1 * (y 0).val = (k 0).val; rw [e.1, hk0]; omega
  | ⟨1, _⟩ => show win3_0.index t 1 * 128 + 1 * (y 1).val = (k 1).val; rw [e.2.1, hk1]; omega

/-- Every point's block of the first weight matrix is the matrix. -/
theorem w1_eq (c : Dev nD) (t : Fin cfg3.N) :
    (iblk3 V c 1 t : Vec Ideal S128x128 .f32) = (V c main_v80 : S128x128.Idx → EReal) := by
  have e := idx_facts t
  funext y
  unfold iblk3
  rw [View.read_apply]
  show V c main_v80 _ = V c main_v80 y
  congr 1
  funext a
  apply Fin.ext
  match a with
  | ⟨0, _⟩ => show win3_1.index t 0 * 128 + 1 * (y 0).val = (y 0).val; rw [e.2.2.1]; omega
  | ⟨1, _⟩ => show win3_1.index t 1 * 128 + 1 * (y 1).val = (y 1).val; rw [e.2.2.2.1]; omega

/-- Every point's block of the first bias row is the row. -/
theorem b1_eq (c : Dev nD) (t : Fin cfg3.N) :
    (iblk3 V c 2 t : Vec Ideal S1x128 .f32) = (V c main_v87 : S1x128.Idx → EReal) := by
  have e := idx_facts t
  funext y
  unfold iblk3
  rw [View.read_apply]
  show V c main_v87 _ = V c main_v87 y
  congr 1
  funext a
  apply Fin.ext
  match a with
  | ⟨0, _⟩ => show win3_2.index t 0 * 1 + 1 * (y 0).val = (y 0).val; rw [e.2.2.2.2.1]; omega
  | ⟨1, _⟩ => show win3_2.index t 1 * 128 + 1 * (y 1).val = (y 1).val; rw [e.2.2.2.2.2.1]; omega

/-- Every point's block of the second weight matrix is the matrix. -/
theorem w2_eq (c : Dev nD) (t : Fin cfg3.N) :
    (iblk3 V c 3 t : Vec Ideal S128x128 .f32) = (V c main_v84 : S128x128.Idx → EReal) := by
  have e := idx_facts t
  funext y
  unfold iblk3
  rw [View.read_apply]
  show V c main_v84 _ = V c main_v84 y
  congr 1
  funext a
  apply Fin.ext
  match a with
  | ⟨0, _⟩ => show win3_3.index t 0 * 128 + 1 * (y 0).val = (y 0).val; rw [e.2.2.2.2.2.2.1]; omega
  | ⟨1, _⟩ => show win3_3.index t 1 * 128 + 1 * (y 1).val = (y 1).val; rw [e.2.2.2.2.2.2.2.1]; omega

/-- Every point's block of the second bias row is the row. -/
theorem b2_eq (c : Dev nD) (t : Fin cfg3.N) :
    (iblk3 V c 4 t : Vec Ideal S1x128 .f32) = (V c main_v88 : S1x128.Idx → EReal) := by
  have e := idx_facts t
  funext y
  unfold iblk3
  rw [View.read_apply]
  show V c main_v88 _ = V c main_v88 y
  congr 1
  funext a
  apply Fin.ext
  match a with
  | ⟨0, _⟩ => show win3_4.index t 0 * 1 + 1 * (y 0).val = (y 0).val; rw [e.2.2.2.2.2.2.2.2.1]; omega
  | ⟨1, _⟩ => show win3_4.index t 1 * 128 + 1 * (y 1).val = (y 1).val; rw [e.2.2.2.2.2.2.2.2.2.1]; omega

/-- What point t writes back is block t of the output array. -/
theorem flushed_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  rw [w1_eq V c t, b1_eq V c t, w2_eq V c t, b2_eq V c t]
  have e := idx_facts t
  have e6 := e.2.2.2.2.2.2.2.2.2.2.1
  have e7 := e.2.2.2.2.2.2.2.2.2.2.2.1
  have ht := e.2.2.2.2.2.2.2.2.2.2.2.2
  funext j
  obtain ⟨p, q, rfl⟩ : ∃ (p : Fin 5000) (q : Fin 128), j = ix2 p q := ⟨j 0, j 1, eq_ix2 j⟩
  have hrow : (5000 * t.val + p.val) < 50000 := by have := p.isLt; omega
  have hemb : ((cfg3.win 5).blk t).view.emb (ix2 p q) = (ix2 (⟨5000 * t.val + p.val, hrow⟩ : Fin 50000) q : S50000x128.Idx) := by
    funext a
    apply Fin.ext
    match a with
    | ⟨0, _⟩ => show win3_5.index t 0 * 5000 + 1 * p.val = 5000 * t.val + p.val; rw [e6]; omega
    | ⟨1, _⟩ => show win3_5.index t 1 * 128 + 1 * q.val = q.val; rw [e7]; omega
  show k1_pay1 (iblk3 V c 0 t) (V c main_v80) (V c main_v87) (V c main_v84) (V c main_v88) (ix2 p q) = out V c (((cfg3.win 5).blk t).view.emb (ix2 p q))
  rw [hemb]
  refine (conv_apply (iblk3 V c 0 t) (V c main_v80) (V c main_v87) (V c main_v84) (V c main_v88) p q).trans ?_
  show mlp2Row _ _ _ _ _ q = mlp2Row _ _ _ _ _ q
  refine congrArg (fun r => mlp2Row r (V c main_v80) (V c main_v87) (V c main_v84) (V c main_v88) q) (funext fun cc => ?_)
  exact rows_apply V c t (ix2 p cc) (ix2 (⟨5000 * t.val + p.val, hrow⟩ : Fin 50000) cc) rfl rfl

/-- An index of the output array is in point t's block iff each coordinate is in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v89).slice (win3_5.rect t)).set ↔ _
  rw [View.set_slice_whole, Rect.mem_set_unit]
  exact Iff.rfl

/-- The ten blocks cover the output array. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, q0, q1⟩ := idx_onto ⟨(i 0).val / 5000, by omega⟩
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [q0]; show (i 0).val / 5000 * 5000 ≤ (i 0).val ∧ (i 0).val < (i 0).val / 5000 * 5000 + 5000; omega
  | ⟨1, _⟩ => show win3_5.index t (1 : Fin 2) * 128 ≤ (i 1).val ∧ (i 1).val < win3_5.index t (1 : Fin 2) * 128 + 128; rw [q1]; omega

/-- The output array after the launch. -/
theorem final (c : Dev nD) : (dat3 V c).arrAt 5 cfg3.N = out V c :=
  (dat3 V c).arrAt_eq_of_cover 5 (out V c) (fun t _ => flushed_eq V c t) (cover)

end Cert.KernelIdeal.Region3

end
-- ==== Proof.Region4.lean ====
/-
  The head's launch: what its output array holds when the launch is over.

  The launch has ten grid points. Point t loads rows 2000·t … 2000·t + 1999 of the pooled candidate features and the
  three weight matrices and three bias rows whole, and writes back rows 2000·t … 2000·t + 1999 of the output. Entry
  (p, q) of the block it writes is row p of its block through two rectified dense layers and a last dense layer, which
  is row 2000·t + p of the pooled features through them; the ten blocks tile the output. So the output array is the
  three layers of the pooled features, row by row, whatever the launch found in its seven input arrays.
-/
import proofs.«111067_j16716012716419_1_alg».proof.Proof.Gen.KernelIdeal.Frame
import proofs.«111067_j16716012716419_1_alg».proof.Proof.Payloads
import Idealize.ShloMosaic.Lib.Pipeline.Value

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen Cert.LibDenseRows Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature and output windows move one block of rows per point, the weight
    and bias windows stay on their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 ∧ t.val < 10 :=
  (by decide +kernel : ∀ t : Fin grid4.N, _)

/-- Every block of rows of the output is some point's. -/
theorem idx_onto : ∀ q0 : Fin 10, ∃ t : Fin cfg4.N, win4_7.index t (0 : Fin 2) = q0.val ∧ win4_7.index t (1 : Fin 2) = 0 :=
  (by decide +kernel : ∀ q0 : Fin 10, ∃ t : Fin grid4.N, win4_7.index t (0 : Fin 2) = q0.val ∧ win4_7.index t (1 : Fin 2) = 0)

/-- The output array: the three layers of the arrays the launch finds, row by row. -/
abbrev out (c : Dev nD) : S20000x128.Idx → EReal :=
  mlp3Arr (m := 20000) (k := 256) (h := 128) (g := 128) (n := 128) (V c main_v126) (V c main_arg16) (V c main_v129)
    (V c main_arg18) (V c main_v130) (V c main_v127) (V c main_v131)

/-- Point t's block of features is rows 2000·t … of the pooled features. -/
theorem rows_apply (c : Dev nD) (t : Fin cfg4.N) (y : S2000x256.Idx) (k : S20000x256.Idx)
    (hk0 : (k 0).val = 2000 * t.val + (y 0).val) (hk1 : (k 1).val = (y 1).val) :
    (iblk4 V c 0 t : Vec Ideal S2000x256 .f32) y = (V c main_v126 : S20000x256.Idx → EReal) k := by
  have e := idx_facts t
  unfold iblk4
  rw [View.read_apply]
  show V c main_v126 _ = V c main_v126 _
  congr 1
  funext a
  apply Fin.ext
  match a with
  | ⟨0, _⟩ => show win4_0.index t 0 * 2000 + 1 * (y 0).val = (k 0).val; rw [e.1, hk0]; omega
  | ⟨1, _⟩ => show win4_0.index t 1 * 256 + 1 * (y 1).val = (k 1).val; rw [e.2.1, hk1]; omega

/-- Every point's block of the first weight matrix is the matrix. -/
theorem w0_eq (c : Dev nD) (t : Fin cfg4.N) :
    (iblk4 V c 1 t : Vec Ideal S256x128 .f32) = (V c main_arg16 : S256x128.Idx → EReal) := by
  have e := idx_facts t
  funext y
  unfold iblk4
  rw [View.read_apply]
  show V c main_arg16 _ = V c main_arg16 y
  congr 1
  funext a
  apply Fin.ext
  match a with
  | ⟨0, _⟩ => show win4_1.index t 0 * 256 + 1 * (y 0).val = (y 0).val; rw [e.2.2.1]; omega
  | ⟨1, _⟩ => show win4_1.index t 1 * 128 + 1 * (y 1).val = (y 1).val; rw [e.2.2.2.1]; omega

/-- Every point's block of the first bias row is the row. -/
theorem b0_eq (c : Dev nD) (t : Fin cfg4.N) :
    (iblk4 V c 2 t : Vec Ideal S1x128 .f32) = (V c main_v129 : S1x128.Idx → EReal) := by
  have e := idx_facts t
  funext y
  unfold iblk4
  rw [View.read_apply]
  show V c main_v129 _ = V c main_v129 y
  congr 1
  funext a
  apply Fin.ext
  match a with
  | ⟨0, _⟩ => show win4_2.index t 0 * 1 + 1 * (y 0).val = (y 0).val; rw [e.2.2.2.2.1]; omega
  | ⟨1, _⟩ => show win4_2.index t 1 * 128 + 1 * (y 1).val = (y 1).val; rw [e.2.2.2.2.2.1]; omega

/-- Every point's block of the second weight matrix is the matrix. -/
theorem w1_eq (c : Dev nD) (t : Fin cfg4.N) :
    (iblk4 V c 3 t : Vec Ideal S128x128 .f32) = (V c main_arg18 : S128x128.Idx → EReal) := by
  have e := idx_facts t
  funext y
  unfold iblk4
  rw [View.read_apply]
  show V c main_arg18 _ = V c main_arg18 y
  congr 1
  funext a
  apply Fin.ext
  match a with
  | ⟨0, _⟩ => show win4_3.index t 0 * 128 + 1 * (y 0).val = (y 0).val; rw [e.2.2.2.2.2.2.1]; omega
  | ⟨1, _⟩ => show win4_3.index t 1 * 128 + 1 * (y 1).val = (y 1).val; rw [e.2.2.2.2.2.2.2.1]; omega

/-- Every point's block of the second bias row is the row. -/
theorem b1_eq (c : Dev nD) (t : Fin cfg4.N) :
    (iblk4 V c 4 t : Vec Ideal S1x128 .f32) = (V c main_v130 : S1x128.Idx → EReal) := by
  have e := idx_facts t
  funext y
  unfold iblk4
  rw [View.read_apply]
  show V c main_v130 _ = V c main_v130 y
  congr 1
  funext a
  apply Fin.ext
  match a with
  | ⟨0, _⟩ => show win4_4.index t 0 * 1 + 1 * (y 0).val = (y 0).val; rw [e.2.2.2.2.2.2.2.2.1]; omega
  | ⟨1, _⟩ => show win4_4.index t 1 * 128 + 1 * (y 1).val = (y 1).val; rw [e.2.2.2.2.2.2.2.2.2.1]; omega

/-- Every point's block of the last (zero-padded) weight matrix is the matrix. -/
theorem w2_eq (c : Dev nD) (t : Fin cfg4.N) :
    (iblk4 V c 5 t : Vec Ideal S128x128 .f32) = (V c main_v127 : S128x128.Idx → EReal) := by
  have e := idx_facts t
  funext y
  unfold iblk4
  rw [View.read_apply]
  show V c main_v127 _ = V c main_v127 y
  congr 1
  funext a
  apply Fin.ext
  match a with
  | ⟨0, _⟩ => show win4_5.index t 0 * 128 + 1 * (y 0).val = (y 0).val; rw [e.2.2.2.2.2.2.2.2.2.2.1]; omega
  | ⟨1, _⟩ => show win4_5.index t 1 * 128 + 1 * (y 1).val = (y 1).val; rw [e.2.2.2.2.2.2.2.2.2.2.2.1]; omega

/-- Every point's block of the last (zero-padded) bias row is the row. -/
theorem b2_eq (c : Dev nD) (t : Fin cfg4.N) :
    (iblk4 V c 6 t : Vec Ideal S1x128 .f32) = (V c main_v131 : S1x128.Idx → EReal) := by
  have e := idx_facts t
  funext y
  unfold iblk4
  rw [View.read_apply]
  show V c main_v131 _ = V c main_v131 y
  congr 1
  funext a
  apply Fin.ext
  match a with
  | ⟨0, _⟩ => show win4_6.index t 0 * 1 + 1 * (y 0).val = (y 0).val; rw [e.2.2.2.2.2.2.2.2.2.2.2.2.1]; omega
  | ⟨1, _⟩ => show win4_6.index t 1 * 128 + 1 * (y 1).val = (y 1).val; rw [e.2.2.2.2.2.2.2.2.2.2.2.2.2.1]; omega

/-- What point t writes back is block t of the output array. -/
theorem flushed_eq (c : Dev nD) (t : Fin cfg4.N) :
    (dat4 V c).flushed 7 t = ((cfg4.win 7).blk t).view.read (Elt Ideal) (out V c) := by
  show (cfg4.win 7).cut (grid4.coords t) ((dat4 V c).after 7 t) = _
  rw [after4_7]
  unfold out4_7
  rw [View.canon_unit_zero hz]
  simp only [View.ld_unit_zero (S := S2000x256) hz, View.ld_unit_zero (S := S256x128) hz, View.ld_unit_zero (S := S128x128) hz, View.ld_unit_zero (S := S1x128) hz]
  rw [w0_eq V c t, b0_eq V c t, w1_eq V c t, b1_eq V c t, w2_eq V c t, b2_eq V c t]
  have e := idx_facts t
  have e6 := e.2.2.2.2.2.2.2.2.2.2.2.2.2.2.1
  have e7 := e.2.2.2.2.2.2.2.2.2.2.2.2.2.2.2.1
  have ht := e.2.2.2.2.2.2.2.2.2.2.2.2.2.2.2.2
  funext j
  obtain ⟨p, q, rfl⟩ : ∃ (p : Fin 2000) (q : Fin 128), j = ix2 p q := ⟨j 0, j 1, eq_ix2 j⟩
  have hrow : (2000 * t.val + p.val) < 20000 := by have := p.isLt; omega
  have hemb : ((cfg4.win 7).blk t).view.emb (ix2 p q) = (ix2 (⟨2000 * t.val + p.val, hrow⟩ : Fin 20000) q : S20000x128.Idx) := by
    funext a
    apply Fin.ext
    match a with
    | ⟨0, _⟩ => show win4_7.index t 0 * 2000 + 1 * p.val = 2000 * t.val + p.val; rw [e6]; omega
    | ⟨1, _⟩ => show win4_7.index t 1 * 128 + 1 * q.val = q.val; rw [e7]; omega
  show k4_pay1 (iblk4 V c 0 t) (V c main_arg16) (V c main_v129) (V c main_arg18) (V c main_v130) (V c main_v127) (V c main_v131) (ix2 p q) = out V c (((cfg4.win 7).blk t).view.emb (ix2 p q))
  rw [hemb]
  refine (head_apply (iblk4 V c 0 t) (V c main_arg16) (V c main_v129) (V c main_arg18) (V c main_v130) (V c main_v127) (V c main_v131) p q).trans ?_
  show mlp3Row _ _ _ _ _ _ _ q = mlp3Row _ _ _ _ _ _ _ q
  refine congrArg (fun r => mlp3Row r (V c main_arg16) (V c main_v129) (V c main_arg18) (V c main_v130) (V c main_v127) (V c main_v131) q) (funext fun cc => ?_)
  exact rows_apply V c t (ix2 p cc) (ix2 (⟨2000 * t.val + p.val, hrow⟩ : Fin 20000) cc) rfl rfl

/-- An index of the output array is in point t's block iff each coordinate is in the block's range. -/
theorem mem_blk (t : Fin cfg4.N) (i : S20000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v132).slice (win4_7.rect t)).set ↔ _
  rw [View.set_slice_whole, Rect.mem_set_unit]
  exact Iff.rfl

/-- The ten blocks cover the output array. -/
theorem cover (i : S20000x128.Idx) : ∃ t : Fin cfg4.N, (cfg4.win 7).flush t = true ∧ i ∈ ((cfg4.win 7).blk t).view.set := by
  have hi0 : (i 0).val < 20000 := (i 0).isLt
  have hi1 : (i 1).val < 128 := (i 1).isLt
  obtain ⟨t, q0, q1⟩ := idx_onto ⟨(i 0).val / 2000, by omega⟩
  refine ⟨t, flush4_7 t, ?_⟩
  rw [mem_blk]
  intro a
  match a with
  | ⟨0, _⟩ => show win4_7.index t (0 : Fin 2) * 2000 ≤ (i 0).val ∧ (i 0).val < win4_7.index t (0 : Fin 2) * 2000 + 2000; rw [q0]; show (i 0).val / 2000 * 2000 ≤ (i 0).val ∧ (i 0).val < (i 0).val / 2000 * 2000 + 2000; omega
  | ⟨1, _⟩ => show win4_7.index t (1 : Fin 2) * 128 ≤ (i 1).val ∧ (i 1).val < win4_7.index t (1 : Fin 2) * 128 + 128; rw [q1]; omega

/-- The output array after the launch. -/
theorem final (c : Dev nD) : (dat4 V c).arrAt 7 cfg4.N = out V c :=
  (dat4 V c).arrAt_eq_of_cover 7 (out V c) (fun t _ => flushed_eq V c t) (cover)

end Cert.KernelIdeal.Region4

end
-- ==== Proof.KChain.lean ====
/-
  The idealized kernel's buffers at the boundaries between its segments, in terms of the launch memory.

  Walking the program from the launch: the first stretch slices the edge list and reshapes a bias; each launch leaves in
  its output array the dense layers of its input arrays, row by row; each stretch between two launches computes its
  arrays from the previous launch's output and from buffers nothing has written since the first stretch. Composing
  these gives every launch's input arrays, and at the end the result buffer, as functions of the argument arrays.
-/
import proofs.«111067_j16716012716419_1_alg».proof.Proof.Gen.KernelIdeal.Frame
import proofs.«111067_j16716012716419_1_alg».proof.Proof.Keeps
import proofs.«111067_j16716012716419_1_alg».proof.Proof.Spec
import proofs.«111067_j16716012716419_1_alg».proof.Proof.Region0
import proofs.«111067_j16716012716419_1_alg».proof.Proof.Region1
import proofs.«111067_j16716012716419_1_alg».proof.Proof.Region2
import proofs.«111067_j16716012716419_1_alg».proof.Proof.Region3
import proofs.«111067_j16716012716419_1_alg».proof.Proof.Region4
import Idealize.ShloMosaic.Lib.KernelVsHost

set_option maxRecDepth 16384
set_option maxHeartbeats 8000000

noncomputable section

namespace Cert.KernelIdeal.KChain

open Idealize.ShloMosaic Idealize.ShloMosaic.TcCoe Idealize.SL.Sem Idealize.ShloMosaic.StableHlo Idealize.ShloMosaic.ValueIdx
open Cert.KernelIdeal Cert.KernelIdeal.Facts₀ Cert.KernelIdeal.Gen Cert.KernelIdeal.Keeps Cert.KernelIdeal.Stages Cert.LibDenseRows Cert.LibWrittenList

variable (m : (ℓ : Loc nD τ sig) → Buf (Elt Ideal) ℓ) (ρ : Dev nD → PrngReg) (c : Dev nD)

/-! ## When the first launch is entered -/

/-- The first stretch writes five buffers of its own; every other buffer is as launched. -/
theorem hostOps0_wr : (hostOps0 : List (HloOp τ sig (Elt Ideal))).Forall fun op =>
    op.writes ⊆ (([main_v0, main_v1, main_v2, main_v3, main_v4] : List (Ref sig .tc)).map (Proc.devRef (τ := τ) .tc)).toFinset := by
  writes_within_list

theorem at1 (r : Ref sig .tc) (h : r ∉ ([main_v0, main_v1, main_v2, main_v3, main_v4] : List (Ref sig .tc))) :
    W1 m ρ c (Proc.devRef .tc r) = m ((c : Thread nD τ).loc r) :=
  StableHlo.after_of_writes_sub _ _ hostOps0_wr h

theorem src1 : (W1 m ρ c (Proc.devRef .tc main_v1) : IVec S800000 32) = srcCol (m ((c : Thread nD τ).loc main_arg1)) := by
  show StableHlo.after hostOps0 (W0 m ρ c) (Proc.devRef .tc main_v1) = _
  after_results
  rfl

theorem dst1 : (W1 m ρ c (Proc.devRef .tc main_v3) : IVec S800000 32) = dstCol (m ((c : Thread nD τ).loc main_arg1)) := by
  show StableHlo.after hostOps0 (W0 m ρ c) (Proc.devRef .tc main_v3) = _
  after_results
  rfl

theorem row1 : (W1 m ρ c (Proc.devRef .tc main_v4) : FVec Ideal S1x128 .f32) = row (m ((c : Thread nD τ).loc main_arg9)) := by
  show StableHlo.after hostOps0 (W0 m ρ c) (Proc.devRef .tc main_v4) = _
  after_results
  rfl

/-! ## After the first launch -/

theorem feat0_eq : (W2 m ρ c (Proc.devRef .tc main_v5) : FVec Ideal S50000x128 .f32)
    = feat0 (m ((c : Thread nD τ).loc main_arg0)) (m ((c : Thread nD τ).loc main_arg8)) (m ((c : Thread nD τ).loc main_arg9)) := by
  refine (W2_arr m ρ c 3).trans ((Region0.final (V1 m ρ) c).trans ?_)
  show denseArr (m := 50000) (k := 64) (n := 128) (W1 m ρ c (Proc.devRef .tc main_arg0)) (W1 m ρ c (Proc.devRef .tc main_arg8))
    (W1 m ρ c (Proc.devRef .tc main_v4)) = _
  rw [at1 m ρ c main_arg0 (by decide), at1 m ρ c main_arg8 (by decide), row1 m ρ c]
  rfl

/-- The node features after the input projection. -/
def x0 : FVec Ideal S50000x128 .f32 :=
  feat0 (m ((c : Thread nD τ).loc main_arg0)) (m ((c : Thread nD τ).loc main_arg8)) (m ((c : Thread nD τ).loc main_arg9))

theorem x0_eq : (W2 m ρ c (Proc.devRef .tc main_v5) : FVec Ideal S50000x128 .f32) = x0 m c := feat0_eq m ρ c

/-! ## Message-passing layer 0 -/

/-- A buffer nothing writes after the first stretch, at the boundary where layer 0 starts. -/
theorem live2 (r : Ref sig .tc) (h : r ∉ WR) (h0 : ∀ w, Pipeline.arrRef spec0 w ≠ r) :
    W2 m ρ c (Proc.devRef .tc r) = W1 m ρ c (Proc.devRef .tc r) :=
  W2_of_ne m ρ c r h0

theorem hop0_eq : (W5 m ρ c (Proc.devRef .tc main_v22) : FVec Ideal S50000x128 .f32)
    = hop (W2 m ρ c (Proc.devRef .tc main_v5)) (W2 m ρ c (Proc.devRef .tc main_v1)) (W2 m ρ c (Proc.devRef .tc main_v3))
        (W2 m ρ c (Proc.devRef .tc main_arg2)) (W2 m ρ c (Proc.devRef .tc main_arg10)) (W2 m ρ c (Proc.devRef .tc main_arg11)) := by
  show StableHlo.after hostOps1_2 (StableHlo.after hostOps1_1 (StableHlo.after hostOps1 (W2 m ρ c))) (Proc.devRef .tc main_v22) = _
  after_results_simp
  rfl

theorem wa0_eq : (W5 m ρ c (Proc.devRef .tc main_v24) : FVec Ideal S128x128 .f32) = w0 (W2 m ρ c (Proc.devRef .tc main_arg12)) := by
  show StableHlo.after hostOps1_2 (StableHlo.after hostOps1_1 (StableHlo.after hostOps1 (W2 m ρ c))) (Proc.devRef .tc main_v24) = _
  after_results_simp
  rfl

theorem wb0_eq : (W5 m ρ c (Proc.devRef .tc main_v28) : FVec Ideal S128x128 .f32) = w0 (W2 m ρ c (Proc.devRef .tc main_arg14)) := by
  show StableHlo.after hostOps1_2 (StableHlo.after hostOps1_1 (StableHlo.after hostOps1 (W2 m ρ c))) (Proc.devRef .tc main_v28) = _
  after_results_simp
  rfl

theorem ba0_eq : (W5 m ρ c (Proc.devRef .tc main_v31) : FVec Ideal S1x128 .f32) = b0 (W2 m ρ c (Proc.devRef .tc main_arg13)) := by
  show StableHlo.after hostOps1_2 (StableHlo.after hostOps1_1 (StableHlo.after hostOps1 (W2 m ρ c))) (Proc.devRef .tc main_v31) = _
  after_results_simp
  exact shapeCast_shapeCast (b0 (W2 m ρ c (Proc.devRef .tc main_arg13))) _ _

theorem bb0_eq : (W5 m ρ c (Proc.devRef .tc main_v32) : FVec Ideal S1x128 .f32) = b0 (W2 m ρ c (Proc.devRef .tc main_arg15)) := by
  show StableHlo.after hostOps1_2 (StableHlo.after hostOps1_1 (StableHlo.after hostOps1 (W2 m ρ c))) (Proc.devRef .tc main_v32) = _
  after_results_simp
  exact shapeCast_shapeCast (b0 (W2 m ρ c (Proc.devRef .tc main_arg15))) _ _

/-- The node features after layer 0. -/
def x1 : FVec Ideal S50000x128 .f32 :=
  layer (x0 m c) (m ((c : Thread nD τ).loc main_arg1)) (m ((c : Thread nD τ).loc main_arg2))
    (m ((c : Thread nD τ).loc main_arg10)) (m ((c : Thread nD τ).loc main_arg11))
    (w0 (m ((c : Thread nD τ).loc main_arg12))) (b0 (m ((c : Thread nD τ).loc main_arg13)))
    (w0 (m ((c : Thread nD τ).loc main_arg14))) (b0 (m ((c : Thread nD τ).loc main_arg15)))

theorem x1_eq : (W6 m ρ c (Proc.devRef .tc main_v33) : FVec Ideal S50000x128 .f32) = x1 m c := by
  refine (W6_arr m ρ c 5).trans ((Region1.final (V5 m ρ) c).trans ?_)
  show mlp2Arr (m := 50000) (k := 128) (h := 128) (n := 128) (W5 m ρ c (Proc.devRef .tc main_v22)) (W5 m ρ c (Proc.devRef .tc main_v24))
    (W5 m ρ c (Proc.devRef .tc main_v31)) (W5 m ρ c (Proc.devRef .tc main_v28)) (W5 m ρ c (Proc.devRef .tc main_v32)) = _
  rw [hop0_eq m ρ c, wa0_eq m ρ c, ba0_eq m ρ c, wb0_eq m ρ c, bb0_eq m ρ c, x0_eq m ρ c,
    live2 m ρ c main_v1 (by decide) (by decide), live2 m ρ c main_v3 (by decide) (by decide),
    live2 m ρ c main_arg2 (by decide) (by decide), live2 m ρ c main_arg10 (by decide) (by decide), live2 m ρ c main_arg11 (by decide) (by decide), live2 m ρ c main_arg12 (by decide) (by decide), live2 m ρ c main_arg13 (by decide) (by decide), live2 m ρ c main_arg14 (by decide) (by decide), live2 m ρ c main_arg15 (by decide) (by decide),
    src1 m ρ c, dst1 m ρ c, at1 m ρ c main_arg2 (by decide), at1 m ρ c main_arg10 (by decide), at1 m ρ c main_arg11 (by decide), at1 m ρ c main_arg12 (by decide), at1 m ρ c main_arg13 (by decide), at1 m ρ c main_arg14 (by decide), at1 m ρ c main_arg15 (by decide)]
  rfl

/-! ## Message-passing layer 1 -/

/-- A buffer nothing writes after the first stretch, at the boundary where layer 1 starts. -/
theorem live6 (r : Ref sig .tc) (h : r ∉ WR) (h0 : ∀ w, Pipeline.arrRef spec0 w ≠ r) (h1 : ∀ w, Pipeline.arrRef spec1 w ≠ r) :
    W6 m ρ c (Proc.devRef .tc r) = W1 m ρ c (Proc.devRef .tc r) :=
  (W6_of_ne m ρ c r h1).trans (live5 m ρ c r h h0)

theorem hop1_eq : (W9 m ρ c (Proc.devRef .tc main_v50) : FVec Ideal S50000x128 .f32)
    = hop (W6 m ρ c (Proc.devRef .tc main_v33)) (W6 m ρ c (Proc.devRef .tc main_v1)) (W6 m ρ c (Proc.devRef .tc main_v3))
        (W6 m ρ c (Proc.devRef .tc main_arg2)) (W6 m ρ c (Proc.devRef .tc main_arg10)) (W6 m ρ c (Proc.devRef .tc main_arg11)) := by
  show StableHlo.after hostOps2_2 (StableHlo.after hostOps2_1 (StableHlo.after hostOps2 (W6 m ρ c))) (Proc.devRef .tc main_v50) = _
  after_results_simp
  rfl

theorem wa1_eq : (W9 m ρ c (Proc.devRef .tc main_v52) : FVec Ideal S128x128 .f32) = w1 (W6 m ρ c (Proc.devRef .tc main_arg12)) := by
  show StableHlo.after hostOps2_2 (StableHlo.after hostOps2_1 (StableHlo.after hostOps2 (W6 m ρ c))) (Proc.devRef .tc main_v52) = _
  after_results_simp
  rfl

theorem wb1_eq : (W9 m ρ c (Proc.devRef .tc main_v56) : FVec Ideal S128x128 .f32) = w1 (W6 m ρ c (Proc.devRef .tc main_arg14)) := by
  show StableHlo.after hostOps2_2 (StableHlo.after hostOps2_1 (StableHlo.after hostOps2 (W6 m ρ c))) (Proc.devRef .tc main_v56) = _
  after_results_simp
  rfl

theorem ba1_eq : (W9 m ρ c (Proc.devRef .tc main_v59) : FVec Ideal S1x128 .f32) = b1 (W6 m ρ c (Proc.devRef .tc main_arg13)) := by
  show StableHlo.after hostOps2_2 (StableHlo.after hostOps2_1 (StableHlo.after hostOps2 (W6 m ρ c))) (Proc.devRef .tc main_v59) = _
  after_results_simp
  exact shapeCast_shapeCast (b1 (W6 m ρ c (Proc.devRef .tc main_arg13))) _ _

theorem bb1_eq : (W9 m ρ c (Proc.devRef .tc main_v60) : FVec Ideal S1x128 .f32) = b1 (W6 m ρ c (Proc.devRef .tc main_arg15)) := by
  show StableHlo.after hostOps2_2 (StableHlo.after hostOps2_1 (StableHlo.after hostOps2 (W6 m ρ c))) (Proc.devRef .tc main_v60) = _
  after_results_simp
  exact shapeCast_shapeCast (b1 (W6 m ρ c (Proc.devRef .tc main_arg15))) _ _

/-- The node features after layer 1. -/
def x2 : FVec Ideal S50000x128 .f32 :=
  layer (x1 m c) (m ((c : Thread nD τ).loc main_arg1)) (m ((c : Thread nD τ).loc main_arg2))
    (m ((c : Thread nD τ).loc main_arg10)) (m ((c : Thread nD τ).loc main_arg11))
    (w1 (m ((c : Thread nD τ).loc main_arg12))) (b1 (m ((c : Thread nD τ).loc main_arg13)))
    (w1 (m ((c : Thread nD τ).loc main_arg14))) (b1 (m ((c : Thread nD τ).loc main_arg15)))

theorem x2_eq : (W10 m ρ c (Proc.devRef .tc main_v61) : FVec Ideal S50000x128 .f32) = x2 m c := by
  refine (W10_arr m ρ c 5).trans ((Region2.final (V9 m ρ) c).trans ?_)
  show mlp2Arr (m := 50000) (k := 128) (h := 128) (n := 128) (W9 m ρ c (Proc.devRef .tc main_v50)) (W9 m ρ c (Proc.devRef .tc main_v52))
    (W9 m ρ c (Proc.devRef .tc main_v59)) (W9 m ρ c (Proc.devRef .tc main_v56)) (W9 m ρ c (Proc.devRef .tc main_v60)) = _
  rw [hop1_eq m ρ c, wa1_eq m ρ c, ba1_eq m ρ c, wb1_eq m ρ c, bb1_eq m ρ c, x1_eq m ρ c,
    live6 m ρ c main_v1 (by decide) (by decide) (by decide), live6 m ρ c main_v3 (by decide) (by decide) (by decide),
    live6 m ρ c main_arg2 (by decide) (by decide) (by decide), live6 m ρ c main_arg10 (by decide) (by decide) (by decide), live6 m ρ c main_arg11 (by decide) (by decide) (by decide), live6 m ρ c main_arg12 (by decide) (by decide) (by decide), live6 m ρ c main_arg13 (by decide) (by decide) (by decide), live6 m ρ c main_arg14 (by decide) (by decide) (by decide), live6 m ρ c main_arg15 (by decide) (by decide) (by decide),
    src1 m ρ c, dst1 m ρ c, at1 m ρ c main_arg2 (by decide), at1 m ρ c main_arg10 (by decide), at1 m ρ c main_arg11 (by decide), at1 m ρ c main_arg12 (by decide), at1 m ρ c main_arg13 (by decide), at1 m ρ c main_arg14 (by decide), at1 m ρ c main_arg15 (by decide)]
  rfl

/-! ## Message-passing layer 2 -/

/-- A buffer nothing writes after the first stretch, at the boundary where layer 2 starts. -/
theorem live10 (r : Ref sig .tc) (h : r ∉ WR) (h0 : ∀ w, Pipeline.arrRef spec0 w ≠ r) (h1 : ∀ w, Pipeline.arrRef spec1 w ≠ r) (h2 : ∀ w, Pipeline.arrRef spec2 w ≠ r) :
    W10 m ρ c (Proc.devRef .tc r) = W1 m ρ c (Proc.devRef .tc r) :=
  (W10_of_ne m ρ c r h2).trans (live9 m ρ c r h h0 h1)

theorem hop2_eq : (W13 m ρ c (Proc.devRef .tc main_v78) : FVec Ideal S50000x128 .f32)
    = hop (W10 m ρ c (Proc.devRef .tc main_v61)) (W10 m ρ c (Proc.devRef .tc main_v1)) (W10 m ρ c (Proc.devRef .tc main_v3))
        (W10 m ρ c (Proc.devRef .tc main_arg2)) (W10 m ρ c (Proc.devRef .tc main_arg10)) (W10 m ρ c (Proc.devRef .tc main_arg11)) := by
  show StableHlo.after hostOps3_2 (StableHlo.after hostOps3_1 (StableHlo.after hostOps3 (W10 m ρ c))) (Proc.devRef .tc main_v78) = _
  after_results_simp
  rfl

theorem wa2_eq : (W13 m ρ c (Proc.devRef .tc main_v80) : FVec Ideal S128x128 .f32) = w2 (W10 m ρ c (Proc.devRef .tc main_arg12)) := by
  show StableHlo.after hostOps3_2 (StableHlo.after hostOps3_1 (StableHlo.after hostOps3 (W10 m ρ c))) (Proc.devRef .tc main_v80) = _
  after_results_simp
  rfl

theorem wb2_eq : (W13 m ρ c (Proc.devRef .tc main_v84) : FVec Ideal S128x128 .f32) = w2 (W10 m ρ c (Proc.devRef .tc main_arg14)) := by
  show StableHlo.after hostOps3_2 (StableHlo.after hostOps3_1 (StableHlo.after hostOps3 (W10 m ρ c))) (Proc.devRef .tc main_v84) = _
  after_results_simp
  rfl

theorem ba2_eq : (W13 m ρ c (Proc.devRef .tc main_v87) : FVec Ideal S1x128 .f32) = b2 (W10 m ρ c (Proc.devRef .tc main_arg13)) := by
  show StableHlo.after hostOps3_2 (StableHlo.after hostOps3_1 (StableHlo.after hostOps3 (W10 m ρ c))) (Proc.devRef .tc main_v87) = _
  after_results_simp
  exact shapeCast_shapeCast (b2 (W10 m ρ c (Proc.devRef .tc main_arg13))) _ _

theorem bb2_eq : (W13 m ρ c (Proc.devRef .tc main_v88) : FVec Ideal S1x128 .f32) = b2 (W10 m ρ c (Proc.devRef .tc main_arg15)) := by
  show StableHlo.after hostOps3_2 (StableHlo.after hostOps3_1 (StableHlo.after hostOps3 (W10 m ρ c))) (Proc.devRef .tc main_v88) = _
  after_results_simp
  exact shapeCast_shapeCast (b2 (W10 m ρ c (Proc.devRef .tc main_arg15))) _ _

/-- The node features after layer 2. -/
def x3 : FVec Ideal S50000x128 .f32 :=
  layer (x2 m c) (m ((c : Thread nD τ).loc main_arg1)) (m ((c : Thread nD τ).loc main_arg2))
    (m ((c : Thread nD τ).loc main_arg10)) (m ((c : Thread nD τ).loc main_arg11))
    (w2 (m ((c : Thread nD τ).loc main_arg12))) (b2 (m ((c : Thread nD τ).loc main_arg13)))
    (w2 (m ((c : Thread nD τ).loc main_arg14))) (b2 (m ((c : Thread nD τ).loc main_arg15)))

theorem x3_eq : (W14 m ρ c (Proc.devRef .tc main_v89) : FVec Ideal S50000x128 .f32) = x3 m c := by
  refine (W14_arr m ρ c 5).trans ((Region3.final (V13 m ρ) c).trans ?_)
  show mlp2Arr (m := 50000) (k := 128) (h := 128) (n := 128) (W13 m ρ c (Proc.devRef .tc main_v78)) (W13 m ρ c (Proc.devRef .tc main_v80))
    (W13 m ρ c (Proc.devRef .tc main_v87)) (W13 m ρ c (Proc.devRef .tc main_v84)) (W13 m ρ c (Proc.devRef .tc main_v88)) = _
  rw [hop2_eq m ρ c, wa2_eq m ρ c, ba2_eq m ρ c, wb2_eq m ρ c, bb2_eq m ρ c, x2_eq m ρ c,
    live10 m ρ c main_v1 (by decide) (by decide) (by decide) (by decide), live10 m ρ c main_v3 (by decide) (by decide) (by decide) (by decide),
    live10 m ρ c main_arg2 (by decide) (by decide) (by decide) (by decide), live10 m ρ c main_arg10 (by decide) (by decide) (by decide) (by decide), live10 m ρ c main_arg11 (by decide) (by decide) (by decide) (by decide), live10 m ρ c main_arg12 (by decide) (by decide) (by decide) (by decide), live10 m ρ c main_arg13 (by decide) (by decide) (by decide) (by decide), live10 m ρ c main_arg14 (by decide) (by decide) (by decide) (by decide), live10 m ρ c main_arg15 (by decide) (by decide) (by decide) (by decide),
    src1 m ρ c, dst1 m ρ c, at1 m ρ c main_arg2 (by decide), at1 m ρ c main_arg10 (by decide), at1 m ρ c main_arg11 (by decide), at1 m ρ c main_arg12 (by decide), at1 m ρ c main_arg13 (by decide), at1 m ρ c main_arg14 (by decide), at1 m ρ c main_arg15 (by decide)]
  rfl

/-! ## Pooling, and the head -/

/-- A buffer nothing writes after the first stretch, at the boundary where the pooling starts. -/
theorem live14 (r : Ref sig .tc) (h : r ∉ WR) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) :
    W14 m ρ c (Proc.devRef .tc r) = W1 m ρ c (Proc.devRef .tc r) :=
  (W14_of_ne m ρ c r h3).trans (live13 m ρ c r h h0 h1 h2)

theorem zc_eq : (W19 m ρ c (Proc.devRef .tc main_v126) : FVec Ideal S20000x256 .f32)
    = pooled (W14 m ρ c (Proc.devRef .tc main_v89)) (W14 m ρ c (Proc.devRef .tc main_arg4)) (W14 m ρ c (Proc.devRef .tc main_arg6))
        (W14 m ρ c (Proc.devRef .tc main_arg7)) := by
  show StableHlo.after hostOps4_4 (StableHlo.after hostOps4_3 (StableHlo.after hostOps4_2 (StableHlo.after hostOps4_1 (StableHlo.after hostOps4 (W14 m ρ c))))) (Proc.devRef .tc main_v126) = _
  after_results_simp
  unfold pooled zcOf
  refine congrArg₂ (fun a b => concatenate S20000x256 1 [⟨S20000x128, a⟩, ⟨S20000x128, b⟩] _) ?_ ?_
  · after_results_simp
    rfl
  · after_results_simp
    rfl

theorem padW_eq : (W19 m ρ c (Proc.devRef .tc main_v127) : FVec Ideal S128x128 .f32) = padW (W14 m ρ c (Proc.devRef .tc main_arg20)) := by
  show StableHlo.after hostOps4_4 (StableHlo.after hostOps4_3 (StableHlo.after hostOps4_2 (StableHlo.after hostOps4_1 (StableHlo.after hostOps4 (W14 m ρ c))))) (Proc.devRef .tc main_v127) = _
  after_results_simp
  rfl

theorem padB_eq : (W19 m ρ c (Proc.devRef .tc main_v131) : FVec Ideal S1x128 .f32) = row (padB (W14 m ρ c (Proc.devRef .tc main_arg21))) := by
  show StableHlo.after hostOps4_4 (StableHlo.after hostOps4_3 (StableHlo.after hostOps4_2 (StableHlo.after hostOps4_1 (StableHlo.after hostOps4 (W14 m ρ c))))) (Proc.devRef .tc main_v131) = _
  after_results_simp
  rfl

theorem rowA_eq : (W19 m ρ c (Proc.devRef .tc main_v129) : FVec Ideal S1x128 .f32) = row (W14 m ρ c (Proc.devRef .tc main_arg17)) := by
  show StableHlo.after hostOps4_4 (StableHlo.after hostOps4_3 (StableHlo.after hostOps4_2 (StableHlo.after hostOps4_1 (StableHlo.after hostOps4 (W14 m ρ c))))) (Proc.devRef .tc main_v129) = _
  after_results_simp
  rfl

theorem rowB_eq : (W19 m ρ c (Proc.devRef .tc main_v130) : FVec Ideal S1x128 .f32) = row (W14 m ρ c (Proc.devRef .tc main_arg19)) := by
  show StableHlo.after hostOps4_4 (StableHlo.after hostOps4_3 (StableHlo.after hostOps4_2 (StableHlo.after hostOps4_1 (StableHlo.after hostOps4 (W14 m ρ c))))) (Proc.devRef .tc main_v130) = _
  after_results_simp
  rfl

/-- The node features after the three layers are the composition of the three layers on the projected features. -/
theorem x3_feat3 : x3 m c = feat3 (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl

/-- The head's output array, of the launch memory. -/
def lp : FVec Ideal S20000x128 .f32 :=
  logitsPad (pooled (feat3 (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg4)) (m ((c : Thread nD τ).loc main_arg6)) (m ((c : Thread nD τ).loc main_arg7)))
    (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

theorem lp_eq : (W20 m ρ c (Proc.devRef .tc main_v132) : FVec Ideal S20000x128 .f32) = lp m c := by
  refine (W20_arr m ρ c 7).trans ((Region4.final (V19 m ρ) c).trans ?_)
  show mlp3Arr (m := 20000) (k := 256) (h := 128) (g := 128) (n := 128) (W19 m ρ c (Proc.devRef .tc main_v126))
    (W19 m ρ c (Proc.devRef .tc main_arg16)) (W19 m ρ c (Proc.devRef .tc main_v129)) (W19 m ρ c (Proc.devRef .tc main_arg18))
    (W19 m ρ c (Proc.devRef .tc main_v130)) (W19 m ρ c (Proc.devRef .tc main_v127)) (W19 m ρ c (Proc.devRef .tc main_v131)) = _
  rw [zc_eq m ρ c, padW_eq m ρ c, padB_eq m ρ c, rowA_eq m ρ c, rowB_eq m ρ c, x3_eq m ρ c, x3_feat3 m c,
    live19 m ρ c main_arg16 (by decide) (by decide) (by decide) (by decide) (by decide),
    live19 m ρ c main_arg18 (by decide) (by decide) (by decide) (by decide) (by decide),
    live14 m ρ c main_arg4 (by decide) (by decide) (by decide) (by decide) (by decide),
    live14 m ρ c main_arg6 (by decide) (by decide) (by decide) (by decide) (by decide),
    live14 m ρ c main_arg7 (by decide) (by decide) (by decide) (by decide) (by decide),
    live14 m ρ c main_arg17 (by decide) (by decide) (by decide) (by decide) (by decide),
    live14 m ρ c main_arg19 (by decide) (by decide) (by decide) (by decide) (by decide),
    live14 m ρ c main_arg20 (by decide) (by decide) (by decide) (by decide) (by decide),
    live14 m ρ c main_arg21 (by decide) (by decide) (by decide) (by decide) (by decide),
    at1 m ρ c main_arg4 (by decide), at1 m ρ c main_arg6 (by decide), at1 m ρ c main_arg7 (by decide), at1 m ρ c main_arg16 (by decide), at1 m ρ c main_arg17 (by decide), at1 m ρ c main_arg18 (by decide), at1 m ρ c main_arg19 (by decide), at1 m ρ c main_arg20 (by decide), at1 m ρ c main_arg21 (by decide)]
  rfl

/-! ## The result -/

/-- The kernel's result: column 0 of the head's output where the mask is set, the sentinel elsewhere. -/
def result : FVec Ideal S20000 .f32 := masked (m ((c : Thread nD τ).loc main_arg5)) (col0 (lp m c))

theorem result_eq : (W22 m ρ c (Proc.devRef .tc main_v135) : FVec Ideal S20000 .f32) = result m c := by
  show StableHlo.after hostOps5_1 (StableHlo.after hostOps5 (W20 m ρ c)) (Proc.devRef .tc main_v135) = _
  after_results_simp
  rw [lp_eq m ρ c, live20 m ρ c main_arg5 (by decide) (by decide) (by decide) (by decide) (by decide) (by decide), at1 m ρ c main_arg5 (by decide)]
  rfl

end Cert.KernelIdeal.KChain

end
-- ==== Proof.LibDenseHost.lean ====
/-
  Stacks of dense layers in the host's spelling, read as whole matrices.

  Two rectified dense layers of a matrix, spelt as the host spells them (dot_general, bias row broadcast down the rows,
  maximum with a broadcast zero, twice), are the row-by-row function of the dense-layer module; so is one rectified
  layer. Each entry of the result depends on one row of the input.
-/
import proofs.«111067_j16716012716419_1_alg».proof.Proof.LibDenseRows

noncomputable section

namespace Cert.LibDenseRows

open Idealize.ShloMosaic Idealize.ShloMosaic.ValueIdx

/-- The host's two rectified dense layers of a whole matrix. -/
theorem host_mlp2_eq {m k h n : ℕ} {φ₁ φ₂ φ₃ : FTy} (x : FVec Ideal ⟨2, ![m, k]⟩ φ₁) (w1 : FVec Ideal ⟨2, ![k, h]⟩ φ₂)
    (b1 : FVec Ideal ⟨2, ![1, h]⟩ .f32) (w2 : FVec Ideal ⟨2, ![h, n]⟩ φ₃) (b2 : FVec Ideal ⟨2, ![1, n]⟩ .f32)
    (hb1 : (⟨2, ![1, h]⟩ : Shape).BroadcastsInDim ⟨2, ![m, h]⟩ ![0, 1]) (h01 : (⟨0, ![]⟩ : Shape).BroadcastsInDim ⟨2, ![m, h]⟩ ![])
    (hb2 : (⟨2, ![1, n]⟩ : Shape).BroadcastsInDim ⟨2, ![m, n]⟩ ![0, 1]) (h02 : (⟨0, ![]⟩ : Shape).BroadcastsInDim ⟨2, ![m, n]⟩ ![]) :
    maximumf (addf (Host.dotGeneral (DotDims.plain m h n) none
        (maximumf (addf (Host.dotGeneral (DotDims.plain m k h) none x w1) (broadcastInDim ⟨2, ![m, h]⟩ ![0, 1] hb1 b1))
          (broadcastInDim ⟨2, ![m, h]⟩ ![] h01 (constant (F := Ideal) ⟨0, ![]⟩ .f32 0x00000000#32))) w2)
        (broadcastInDim ⟨2, ![m, n]⟩ ![0, 1] hb2 b2))
      (broadcastInDim ⟨2, ![m, n]⟩ ![] h02 (constant (F := Ideal) ⟨0, ![]⟩ .f32 0x00000000#32))
    = mlp2Arr x w1 b1 w2 b2 := by
  funext i
  obtain ⟨p, q, rfl⟩ : ∃ (p : Fin m) (q : Fin n), i = ix2 p q := ⟨i 0, i 1, eq_ix2 i⟩
  refine (host_relu_dense_apply _ w2 b2 hb2 h02 p q).trans (congrArg relu ?_)
  exact congrArg (fun r => denseRow r w2 b2 q) (funext fun c => host_relu_dense_apply x w1 b1 hb1 h01 p c)

end Cert.LibDenseRows

end
-- ==== Proof.RefStages.lean ====
/-
  The reference program's stages, in the same terms as the kernel's.

  The reference's run is a composition of host operations of the argument arrays. Its dense stages (a dot_general, a
  bias row broadcast down the rows, a rectifier) are the row-by-row dense layers; its sparse stages (gather, scatter-add,
  clamped means) are spelt exactly as the kernel's program spells them, so they are the same named functions of what
  they read. Stage by stage this gives the reference's pooled candidate features as the same function of the argument
  arrays as the kernel's.
-/
import proofs.«111067_j16716012716419_1_alg».proof.Proof.Gen.ReferenceIdeal.Read
import proofs.«111067_j16716012716419_1_alg».proof.Proof.Stages
import proofs.«111067_j16716012716419_1_alg».proof.Proof.LibDenseHost

set_option maxRecDepth 16384
set_option maxHeartbeats 4000000

noncomputable section

namespace Cert.RefStages

open Idealize.ShloMosaic Idealize.ShloMosaic.ValueIdx
open Cert.ReferenceIdeal Cert.ReferenceIdeal.Facts₀ Cert.ReferenceIdeal.Read Cert.KernelIdeal.Stages Cert.LibDenseRows

variable (a0 : (⟨S50000x64, .f32⟩ : BufTy).Contents (Elt Ideal)) (a1 : (⟨S2x800000, .i32⟩ : BufTy).Contents (Elt Ideal)) (a2 : (⟨S800000x1, .f32⟩ : BufTy).Contents (Elt Ideal)) (a4 : (⟨S20000, .i32⟩ : BufTy).Contents (Elt Ideal)) (a5 : (⟨S20000, .i1⟩ : BufTy).Contents (Elt Ideal)) (a6 : (⟨S200000, .i32⟩ : BufTy).Contents (Elt Ideal)) (a7 : (⟨S200000, .i32⟩ : BufTy).Contents (Elt Ideal)) (a8 : (⟨S64x128, .f32⟩ : BufTy).Contents (Elt Ideal)) (a9 : (⟨S128, .f32⟩ : BufTy).Contents (Elt Ideal)) (a10 : (⟨S1x128, .f32⟩ : BufTy).Contents (Elt Ideal)) (a11 : (⟨S128, .f32⟩ : BufTy).Contents (Elt Ideal)) (a12 : (⟨S3x128x128, .f32⟩ : BufTy).Contents (Elt Ideal)) (a13 : (⟨S3x128, .f32⟩ : BufTy).Contents (Elt Ideal)) (a14 : (⟨S3x128x128, .f32⟩ : BufTy).Contents (Elt Ideal)) (a15 : (⟨S3x128, .f32⟩ : BufTy).Contents (Elt Ideal)) (a16 : (⟨S256x128, .f32⟩ : BufTy).Contents (Elt Ideal)) (a17 : (⟨S128, .f32⟩ : BufTy).Contents (Elt Ideal)) (a18 : (⟨S128x128, .f32⟩ : BufTy).Contents (Elt Ideal)) (a19 : (⟨S128, .f32⟩ : BufTy).Contents (Elt Ideal)) (a20 : (⟨S128x1, .f32⟩ : BufTy).Contents (Elt Ideal)) (a21 : (⟨S1, .f32⟩ : BufTy).Contents (Elt Ideal))

/-- The reference's input projection. -/
theorem feat0_eq : val_main_v7 (F := Ideal) a0 a8 a9 = feat0 a0 a8 a9 := by
  unfold val_main_v7 val_main_v6 val_main_v4
  refine (host_dense_eq (m := 50000) (k := 64) (n := 128) a0 a8 (val_main_v5 (F := Ideal) a9) _).trans ?_
  unfold feat0 row val_main_v5
  exact congrArg (denseArr (m := 50000) (k := 64) (n := 128) a0 a8) (oneRow_cast_eq_bcast (n := 128) a9 _ _).symm

/-- The reference's hops are the kernel's. -/
theorem hop0_eq : val_main_v24 (F := Ideal) a0 a1 a2 a8 a9 a10 a11 = hop (val_main_v7 (F := Ideal) a0 a8 a9) (srcCol a1) (dstCol a1) a2 a10 a11 := rfl
theorem hop1_eq : val_main_v55 (F := Ideal) a0 a1 a2 a8 a9 a10 a11 a12 a13 a14 a15 = hop (val_main_v42 (F := Ideal) a0 a1 a2 a8 a9 a10 a11 a12 a13 a14 a15) (srcCol a1) (dstCol a1) a2 a10 a11 := rfl
theorem hop2_eq : val_main_v86 (F := Ideal) a0 a1 a2 a8 a9 a10 a11 a12 a13 a14 a15 = hop (val_main_v73 (F := Ideal) a0 a1 a2 a8 a9 a10 a11 a12 a13 a14 a15) (srcCol a1) (dstCol a1) a2 a10 a11 := rfl

/-- The reference's update of layer 0 is the two rectified dense layers, row by row. -/
theorem mlp0_eq : val_main_v42 (F := Ideal) a0 a1 a2 a8 a9 a10 a11 a12 a13 a14 a15
    = mlp2Arr (m := 50000) (k := 128) (h := 128) (n := 128) (val_main_v24 (F := Ideal) a0 a1 a2 a8 a9 a10 a11) (w0 a12) (b0 a13) (w0 a14) (b0 a15) := by
  unfold val_main_v42 val_main_v41 val_main_v36 val_main_v33 val_main_v32 val_main_v27 val_main_v40 val_main_v31 val_main_call2_v0 val_main_call2_cst val_main_call1_v0 val_main_call1_cst
  refine (host_mlp2_eq (m := 50000) (k := 128) (h := 128) (n := 128) (val_main_v24 (F := Ideal) a0 a1 a2 a8 a9 a10 a11) (val_main_v26 (F := Ideal) a12) (val_main_v30 (F := Ideal) a13) (val_main_v35 (F := Ideal) a14) (val_main_v39 (F := Ideal) a15) _ _ _ _).trans ?_
  have e1 : val_main_v30 (F := Ideal) a13 = b0 a13 := bcast_cast_oneRow (n := 128) (b0 a13) _ _
  have e2 : val_main_v39 (F := Ideal) a15 = b0 a15 := bcast_cast_oneRow (n := 128) (b0 a15) _ _
  rw [e1, e2]
  rfl

/-- The reference's update of layer 1 is the two rectified dense layers, row by row. -/
theorem mlp1_eq : val_main_v73 (F := Ideal) a0 a1 a2 a8 a9 a10 a11 a12 a13 a14 a15
    = mlp2Arr (m := 50000) (k := 128) (h := 128) (n := 128) (val_main_v55 (F := Ideal) a0 a1 a2 a8 a9 a10 a11 a12 a13 a14 a15) (w1 a12) (b1 a13) (w1 a14) (b1 a15) := by
  unfold val_main_v73 val_main_v72 val_main_v67 val_main_v64 val_main_v63 val_main_v58 val_main_v71 val_main_v62 val_main_call5_v0 val_main_call5_cst val_main_call4_v0 val_main_call4_cst
  refine (host_mlp2_eq (m := 50000) (k := 128) (h := 128) (n := 128) (val_main_v55 (F := Ideal) a0 a1 a2 a8 a9 a10 a11 a12 a13 a14 a15) (val_main_v57 (F := Ideal) a12) (val_main_v61 (F := Ideal) a13) (val_main_v66 (F := Ideal) a14) (val_main_v70 (F := Ideal) a15) _ _ _ _).trans ?_
  have e1 : val_main_v61 (F := Ideal) a13 = b1 a13 := bcast_cast_oneRow (n := 128) (b1 a13) _ _
  have e2 : val_main_v70 (F := Ideal) a15 = b1 a15 := bcast_cast_oneRow (n := 128) (b1 a15) _ _
  rw [e1, e2]
  rfl

/-- The reference's update of layer 2 is the two rectified dense layers, row by row. -/
theorem mlp2_eq : val_main_v104 (F := Ideal) a0 a1 a2 a8 a9 a10 a11 a12 a13 a14 a15
    = mlp2Arr (m := 50000) (k := 128) (h := 128) (n := 128) (val_main_v86 (F := Ideal) a0 a1 a2 a8 a9 a10 a11 a12 a13 a14 a15) (w2 a12) (b2 a13) (w2 a14) (b2 a15) := by
  unfold val_main_v104 val_main_v103 val_main_v98 val_main_v95 val_main_v94 val_main_v89 val_main_v102 val_main_v93 val_main_call8_v0 val_main_call8_cst val_main_call7_v0 val_main_call7_cst
  refine (host_mlp2_eq (m := 50000) (k := 128) (h := 128) (n := 128) (val_main_v86 (F := Ideal) a0 a1 a2 a8 a9 a10 a11 a12 a13 a14 a15) (val_main_v88 (F := Ideal) a12) (val_main_v92 (F := Ideal) a13) (val_main_v97 (F := Ideal) a14) (val_main_v101 (F := Ideal) a15) _ _ _ _).trans ?_
  have e1 : val_main_v92 (F := Ideal) a13 = b2 a13 := bcast_cast_oneRow (n := 128) (b2 a13) _ _
  have e2 : val_main_v101 (F := Ideal) a15 = b2 a15 := bcast_cast_oneRow (n := 128) (b2 a15) _ _
  rw [e1, e2]
  rfl

/-- The reference's node features after the three layers. -/
theorem feat3_eq : val_main_v104 (F := Ideal) a0 a1 a2 a8 a9 a10 a11 a12 a13 a14 a15 = feat3 a0 a1 a2 a8 a9 a10 a11 a12 a13 a14 a15 := by
  rw [mlp2_eq, hop2_eq, mlp1_eq, hop1_eq, mlp0_eq, hop0_eq, feat0_eq]
  rfl

/-- The reference's pooled candidate features. -/
theorem pooled_eq : val_main_v141 (F := Ideal) a0 a1 a2 a4 a6 a7 a8 a9 a10 a11 a12 a13 a14 a15 = pooled (feat3 a0 a1 a2 a8 a9 a10 a11 a12 a13 a14 a15) a4 a6 a7 := by
  rw [← feat3_eq]
  rfl

end Cert.RefStages

end
-- ==== Proof.Tail.lean ====
/-
  The last step: column 0 of the zero-padded head against the reference's 128 × 1 product.

  The kernel's head multiplies by the last weight column padded with zero columns to 128 lanes and adds the last bias
  padded with zeros, and the program keeps column 0 of the result; the reference multiplies by the 128 × 1 column itself
  and adds the one bias. Column 0 of the padded weight is the weight column and entry 0 of the padded bias is the bias,
  and column 0 of a product depends on column 0 of the right factor only: the two vectors over the candidates are the
  same sums, term by term. No arithmetic is needed beyond reading both sides at an index, so the infinities are covered.
-/
import proofs.«111067_j16716012716419_1_alg».proof.Proof.Spec
import proofs.«111067_j16716012716419_1_alg».proof.Proof.RefStages
import Idealize.ShloMosaic.Lib.KernelVsHost

set_option maxRecDepth 16384
set_option maxHeartbeats 4000000

noncomputable section

namespace Cert.Tail

open Idealize.ShloMosaic Idealize.ShloMosaic.ValueIdx
open Cert.KernelIdeal.Stages Cert.LibDenseRows

/-- Column 0 of the padded weight matrix is the weight column. -/
theorem padW_col (a20 : FVec Ideal ⟨2, ![128, 1]⟩ .f32) (d : Fin 128) :
    padW a20 (ix2 d (0 : Fin 128)) = a20 (ix2 d (0 : Fin 1)) := by
  unfold padW
  refine pad_apply_of_inside ![0, 0] ![0, 127] ![0, 0] a20 _ _ _ (ix2 d (0 : Fin 128)) (ix2 d (0 : Fin 1)) (fun a => ?_)
  match a with
  | ⟨0, _⟩ => show d.val = 0 + d.val * (0 + 1); omega
  | ⟨1, _⟩ => show (0 : ℕ) = 0 + 0 * (0 + 1); rfl

/-- Entry 0 of the padded bias, as a one-row matrix, is the bias. -/
theorem padB_zero (a21 : FVec Ideal ⟨1, ![1]⟩ .f32) :
    row (padB a21) (ix2 (0 : Fin 1) (0 : Fin 128)) = a21 (ix1 (0 : Fin 1)) := by
  unfold row padB
  refine (shapeCast_apply _ _ (ix2 (0 : Fin 1) (0 : Fin 128)) (ix1 (0 : Fin 128)) (by
    rw [Shape.rowMajor_val_two, Shape.rowMajor_val_one]; rfl)).trans ?_
  refine pad_apply_of_inside ![0] ![127] ![0] a21 _ _ _ (ix1 (0 : Fin 128)) (ix1 (0 : Fin 1)) (fun a => ?_)
  match a with
  | ⟨0, _⟩ => show (0 : ℕ) = 0 + 0 * (0 + 1); rfl

/-- Column 0 of an array over the candidates, at candidate r. -/
theorem col0_apply (lp : FVec Ideal ⟨2, ![20000, 128]⟩ .f32) (r : Fin 20000) :
    col0 lp (ix1 r) = lp (ix2 r (0 : Fin 128)) := by
  unfold col0
  refine (shapeCast_apply _ _ (ix1 r) (ix2 r (0 : Fin 1)) (by
    rw [Shape.rowMajor_val_two, Shape.rowMajor_val_one]; show r.val * 1 + 0 = r.val; omega)).trans ?_
  refine extractStridedSlice_apply ![0, 0] lp _ (ix2 r (0 : Fin 1)) (ix2 r (0 : Fin 128)) (fun a => ?_)
  match a with
  | ⟨0, _⟩ => show r.val = 0 + r.val; omega
  | ⟨1, _⟩ => show (0 : ℕ) = 0 + 0; rfl

/-- The reference's last layer, flattened to a vector over the candidates, at candidate r. -/
theorem ref_col (H : FVec Ideal ⟨2, ![20000, 128]⟩ .f32) (a20 : FVec Ideal ⟨2, ![128, 1]⟩ .f32) (a21 : FVec Ideal ⟨1, ![1]⟩ .f32)
    (hc : (⟨2, ![20000, 1]⟩ : Shape).ShapeCasts ⟨1, ![20000]⟩)
    (hb1 : (⟨2, ![1, 1]⟩ : Shape).BroadcastsInDim ⟨2, ![20000, 1]⟩ ![0, 1])
    (hb2 : (⟨1, ![1]⟩ : Shape).BroadcastsInDim ⟨2, ![1, 1]⟩ ![1]) (r : Fin 20000) :
    shapeCast ⟨1, ![20000]⟩ (addf (Host.dotGeneral (DotDims.plain 20000 128 1) none H a20)
        (broadcastInDim ⟨2, ![20000, 1]⟩ ![0, 1] hb1 (broadcastInDim ⟨2, ![1, 1]⟩ ![1] hb2 a21))) hc (ix1 r)
      = (∑ d : Fin 128, H (ix2 r d) * a20 (ix2 d (0 : Fin 1))) + a21 (ix1 (0 : Fin 1)) := by
  refine (shapeCast_apply _ hc (ix1 r) (ix2 r (0 : Fin 1)) (by
    rw [Shape.rowMajor_val_two, Shape.rowMajor_val_one]; show r.val * 1 + 0 = r.val; omega)).trans ?_
  rw [addf_apply, StackMember.dotGeneral_plain_apply, broadcastInDim_oneRow_apply]
  refine congrArg (fun v => (∑ d : Fin 128, H (ix2 r d) * a20 (ix2 d (0 : Fin 1))) + v) ?_
  refine broadcastInDim_apply ![1] hb2 a21 (ix2 (0 : Fin 1) (0 : Fin 1)) (ix1 (0 : Fin 1)) (fun a => ?_)
  match a with
  | ⟨0, _⟩ => show (0 : ℕ) = if (1 : ℕ) = 1 then 0 else 0; rfl

end Cert.Tail

namespace Cert.RefStages

open Idealize.ShloMosaic Idealize.ShloMosaic.ValueIdx
open Cert.ReferenceIdeal Cert.ReferenceIdeal.Facts₀ Cert.ReferenceIdeal.Read Cert.KernelIdeal.Stages Cert.LibDenseRows Cert.Tail

variable (a0 : (⟨S50000x64, .f32⟩ : BufTy).Contents (Elt Ideal)) (a1 : (⟨S2x800000, .i32⟩ : BufTy).Contents (Elt Ideal)) (a2 : (⟨S800000x1, .f32⟩ : BufTy).Contents (Elt Ideal)) (a4 : (⟨S20000, .i32⟩ : BufTy).Contents (Elt Ideal)) (a5 : (⟨S20000, .i1⟩ : BufTy).Contents (Elt Ideal)) (a6 : (⟨S200000, .i32⟩ : BufTy).Contents (Elt Ideal)) (a7 : (⟨S200000, .i32⟩ : BufTy).Contents (Elt Ideal)) (a8 : (⟨S64x128, .f32⟩ : BufTy).Contents (Elt Ideal)) (a9 : (⟨S128, .f32⟩ : BufTy).Contents (Elt Ideal)) (a10 : (⟨S1x128, .f32⟩ : BufTy).Contents (Elt Ideal)) (a11 : (⟨S128, .f32⟩ : BufTy).Contents (Elt Ideal)) (a12 : (⟨S3x128x128, .f32⟩ : BufTy).Contents (Elt Ideal)) (a13 : (⟨S3x128, .f32⟩ : BufTy).Contents (Elt Ideal)) (a14 : (⟨S3x128x128, .f32⟩ : BufTy).Contents (Elt Ideal)) (a15 : (⟨S3x128, .f32⟩ : BufTy).Contents (Elt Ideal)) (a16 : (⟨S256x128, .f32⟩ : BufTy).Contents (Elt Ideal)) (a17 : (⟨S128, .f32⟩ : BufTy).Contents (Elt Ideal)) (a18 : (⟨S128x128, .f32⟩ : BufTy).Contents (Elt Ideal)) (a19 : (⟨S128, .f32⟩ : BufTy).Contents (Elt Ideal)) (a20 : (⟨S128x1, .f32⟩ : BufTy).Contents (Elt Ideal)) (a21 : (⟨S1, .f32⟩ : BufTy).Contents (Elt Ideal))

/-- The reference's two rectified head layers, row by row. -/
theorem head2_eq : val_main_v151 (F := Ideal) a0 a1 a2 a4 a6 a7 a8 a9 a10 a11 a12 a13 a14 a15 a16 a17 a18 a19
    = mlp2Arr (m := 20000) (k := 256) (h := 128) (n := 128) (val_main_v141 (F := Ideal) a0 a1 a2 a4 a6 a7 a8 a9 a10 a11 a12 a13 a14 a15) a16 (row a17) a18 (row a19) := by
  unfold val_main_v151 val_main_v150 val_main_v147 val_main_v146 val_main_v145 val_main_v142 val_main_v149 val_main_v144
    val_main_call10_v0 val_main_call10_cst val_main_call9_v0 val_main_call9_cst
  refine (host_mlp2_eq (m := 20000) (k := 256) (h := 128) (n := 128) (val_main_v141 (F := Ideal) a0 a1 a2 a4 a6 a7 a8 a9 a10 a11 a12 a13 a14 a15) a16 (val_main_v143 (F := Ideal) a17) a18 (val_main_v148 (F := Ideal) a19) _ _ _ _).trans ?_
  have e1 : val_main_v143 (F := Ideal) a17 = row a17 := (oneRow_cast_eq_bcast (n := 128) a17 _ _).symm
  have e2 : val_main_v148 (F := Ideal) a19 = row a19 := (oneRow_cast_eq_bcast (n := 128) a19 _ _).symm
  rw [e1, e2]

/-- The reference's logits are column 0 of the kernel's zero-padded head, applied to the reference's pooled features. -/
theorem logits_eq : val_main_v156 (F := Ideal) a0 a1 a2 a4 a6 a7 a8 a9 a10 a11 a12 a13 a14 a15 a16 a17 a18 a19 a20 a21 = col0 (logitsPad (val_main_v141 (F := Ideal) a0 a1 a2 a4 a6 a7 a8 a9 a10 a11 a12 a13 a14 a15) a16 a17 a18 a19 a20 a21) := by
  unfold val_main_v156 val_main_v155 val_main_v152 val_main_v154 val_main_v153
  funext i
  obtain ⟨r, rfl⟩ : ∃ r : Fin 20000, i = ix1 r := ⟨i 0, eq_ix1 i⟩
  refine (ref_col (val_main_v151 (F := Ideal) a0 a1 a2 a4 a6 a7 a8 a9 a10 a11 a12 a13 a14 a15 a16 a17 a18 a19) a20 a21 _ _ _ r).trans ?_
  rw [col0_apply, head2_eq]
  show (∑ d : Fin 128, mlp2Row _ a16 (row a17) a18 (row a19) d * a20 (ix2 d (0 : Fin 1))) + a21 (ix1 (0 : Fin 1))
    = denseRow _ (padW a20) (row (padB a21)) (0 : Fin 128)
  unfold denseRow mlp2Row
  rw [padB_zero]
  refine congrArg (fun v => v + a21 (ix1 (0 : Fin 1))) (Finset.sum_congr rfl fun d _ => ?_)
  rw [padW_col]
  rfl

/-- The reference's result as the kernel's function of the argument arrays. -/
theorem result_eq : val_main_v157 (F := Ideal) a0 a1 a2 a4 a5 a6 a7 a8 a9 a10 a11 a12 a13 a14 a15 a16 a17 a18 a19 a20 a21
    = masked a5 (col0 (logitsPad (pooled (feat3 a0 a1 a2 a8 a9 a10 a11 a12 a13 a14 a15) a4 a6 a7) a16 a17 a18 a19 a20 a21)) := by
  rw [← pooled_eq, ← logits_eq]
  rfl

end Cert.RefStages

end
-- ==== Proof.lean ====
/-
  The proof of `Cert.Claim`: a three-layer graph network with mean pooling and a three-layer head, its dense stages run as
  five TensorCore launches among stretches of host gathers and scatters, against the same network written with host
  operations only.

  At the ideal values a launch's matrix product accumulated into zero is the host's product, its operands' narrowing to
  bf16 is the identity, and each launch leaves in its output array the dense layers of its input rows (Region0 … Region4,
  over the dense-layer module). The stretches between the launches are the reference's own host operations, so they are
  carried as named functions of what they read (Stages) and never opened. The kernel recomputes the edge projection in
  every layer where the reference computes it once: the same term. The kernel pads the head's last weight column and
  bias with zeros to 128 lanes and keeps column 0 of the result, where the reference multiplies by the column itself:
  the same sums, term by term (Tail). No step uses more of real arithmetic than 0 + x = x, so the finiteness of the
  inputs is never used. The idealization pass rewrote nothing, so that conjunct is trivial; the frames of the two kernels
  are the generated ones, and the reference's frame is its generated run.
-/
import proofs.«111067_j16716012716419_1_alg».proof.Defs
import proofs.«111067_j16716012716419_1_alg».proof.Proof.Gen.Kernel
import proofs.«111067_j16716012716419_1_alg».proof.Proof.Gen.Kernel.Frame
import proofs.«111067_j16716012716419_1_alg».proof.Proof.Gen.KernelIdeal
import proofs.«111067_j16716012716419_1_alg».proof.Proof.Gen.KernelIdeal.Frame
import proofs.«111067_j16716012716419_1_alg».proof.Proof.Gen.ReferenceIdeal
import proofs.«111067_j16716012716419_1_alg».proof.Proof.Gen.Pre_finite_inputs
import proofs.«111067_j16716012716419_1_alg».proof.Proof.Gen.ReferenceIdeal.Run
import proofs.«111067_j16716012716419_1_alg».proof.Proof.Gen.ReferenceIdeal.Read
import proofs.«111067_j16716012716419_1_alg».proof.Proof.KRun
import proofs.«111067_j16716012716419_1_alg».proof.Proof.KChain
import proofs.«111067_j16716012716419_1_alg».proof.Proof.Tail
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's result buffer holds
    the result function of its argument arrays (the value run and the chain through the boundaries), and the reference's
    result term is the same function of its own (its stages, and the last step). -/
theorem algebraic : Cert.algebraic_KernelIdeal_ReferenceIdeal := by
  intro m ρ m' ρ' _ hagree
  refine ⟨fun c => Cert.KernelIdeal.KChain.result m c, ?_, ?_⟩
  · exact (θ_run Cert.KernelIdeal.defs _ _).mono
      (fun r h c => ⟨(h c).1.trans (Cert.KernelIdeal.KChain.result_eq m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [Cert.ReferenceIdeal.Read.val_main_v157_eq, Cert.RefStages.result_eq, e0, e1, e2, e4, e5, e6, e7, e8, e9, e10, e11, e12, e13, e14, e15, e16, e17, e18, e19, e20, e21]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
